-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x3200000 : Shape := ⟨2, ![2, 3200000]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S2 .f32) (main_arg6 : FVec F S2x1 .f32) (main_arg7 : FVec F S1 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_v24 : FVec F S2x1 .f32 := Host.absf main_arg6
  let main_cst_8 : FVec F S_ .f32 := constant S_ .f32 0x7F800000#32
  let main_v25 : FVec F S2x1 .f32 := broadcastInDim S2x1 ![] bcast_S_S2x1 main_cst_8
  let main_v26 : IVec S2x1 1 := cmpf .olt main_v24 main_v25
  let main_c_9 : IVec S_ 1 := constantI S_ 1 1#1
  let main_v27 : IVec S_ 1 := (fun x v => Host.reduce IntOp.andi x v reducesTo_S2x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x16 .f32) (main_arg1 : IVec S2x3200000 32) (main_arg2 : FVec F S16x4 .f32) (main_arg3 : FVec F S4 .f32) (main_arg4 : FVec F S4x2 .f32) (main_arg5 : FVec F S2 .f32) (main_arg6 : FVec F S2x1 .f32) (main_arg7 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x4 .f32 := Host.absf main_arg2
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_arg6 main_arg7 main_v13 main_v16
-- ==== Kernel.lean ====
abbrev S100000x16 : Shape := ⟨2, ![100000, 16]⟩
abbrev S2x3200000 : Shape := ⟨2, ![2, 3200000]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x4 : Shape := ⟨2, ![100000, 4]⟩
abbrev S10000x16 : Shape := ⟨2, ![10000, 16]⟩
abbrev S10000x4 : Shape := ⟨2, ![10000, 4]⟩
abbrev S3200000x4 : Shape := ⟨2, ![3200000, 4]⟩
abbrev S1x4 : Shape := ⟨2, ![1, 4]⟩
abbrev S4000x4 : Shape := ⟨2, ![4000, 4]⟩
abbrev S4000x1 : Shape := ⟨2, ![4000, 1]⟩
abbrev S100000x2 : Shape := ⟨2, ![100000, 2]⟩
abbrev S10000x2 : Shape := ⟨2, ![10000, 2]⟩
abbrev S3200000x2 : Shape := ⟨2, ![3200000, 2]⟩
abbrev S1x2 : Shape := ⟨2, ![1, 2]⟩
abbrev S4000x2 : Shape := ⟨2, ![4000, 2]⟩
abbrev S10000x1 : Shape := ⟨2, ![10000, 1]⟩
abbrev S1x1 : Shape := ⟨2, ![1, 1]⟩

abbrev nBuf : Space → Nat
  | .hbm => 99
  | .vmem => 42
  | .smem => 0
  | _ => 0

abbrev bufTy : (tb : Table) → Fin (tcTables nBuf tb) → BufTy
  | .hbm, ⟨0, _⟩ => ⟨S100000x16, .f32⟩
  | .hbm, ⟨1, _⟩ => ⟨S2x3200000, .i32⟩
  | .hbm, ⟨2, _⟩ => ⟨S16x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S2x1, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S_, .i32⟩
  | .hbm, ⟨32, _⟩ => ⟨S3200000, .i32⟩
  | .hbm, ⟨33, _⟩ => ⟨S3200000, .i1⟩
  | .hbm, ⟨34, _⟩ => ⟨S_, .i32⟩
  | .hbm, ⟨35, _⟩ => ⟨S3200000, .i32⟩
  | .hbm, ⟨36, _⟩ => ⟨S3200000, .i32⟩
  | .hbm, ⟨37, _⟩ => ⟨S3200000, .i32⟩
  | .hbm, ⟨38, _⟩ => ⟨S3200000x1, .i32⟩
  | .hbm, ⟨39, _⟩ => ⟨S3200000, .f32⟩
  | .hbm, ⟨40, _⟩ => ⟨S3200000, .f32⟩
  | .hbm, ⟨41, _⟩ => ⟨S100000, .f32⟩
  | .hbm, ⟨42, _⟩ => ⟨S100000x1, .f32⟩
  | .hbm, ⟨43, _⟩ => ⟨S100000x4, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x4, .f32⟩
  | .hbm, ⟨53, _⟩ => ⟨S3200000x1, .f32⟩
  | .hbm, ⟨54, _⟩ => ⟨S3200000x4, .f32⟩
  | .hbm, ⟨55, _⟩ => ⟨S3200000x4, .f32⟩
  | .hbm, ⟨56, _⟩ => ⟨S_, .f32⟩
  | .hbm, ⟨57, _⟩ => ⟨S100000x4, .f32⟩
  | .hbm, ⟨58, _⟩ => ⟨S3200000x1, .i32⟩
  | .hbm, ⟨59, _⟩ => ⟨S100000x4, .f32⟩
  | .hbm, ⟨60, _⟩ => ⟨S1x4, .f32⟩
  | .hbm, ⟨61, _⟩ => ⟨S100000x4, .f32⟩
  | .hbm, ⟨62, _⟩ => ⟨S100000x2, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x2, .f32⟩
  | .hbm, ⟨72, _⟩ => ⟨S3200000x1, .f32⟩
  | .hbm, ⟨73, _⟩ => ⟨S3200000x2, .f32⟩
  | .hbm, ⟨74, _⟩ => ⟨S3200000x2, .f32⟩
  | .hbm, ⟨75, _⟩ => ⟨S_, .f32⟩
  | .hbm, ⟨76, _⟩ => ⟨S100000x2, .f32⟩
  | .hbm, ⟨77, _⟩ => ⟨S3200000x1, .i32⟩
  | .hbm, ⟨78, _⟩ => ⟨S100000x2, .f32⟩
  | .hbm, ⟨79, _⟩ => ⟨S1x2, .f32⟩
  | .hbm, ⟨80, _⟩ => ⟨S100000x2, .f32⟩
  | .hbm, ⟨81, _⟩ => ⟨S100000x1, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x1, .f32⟩
  | .hbm, ⟨91, _⟩ => ⟨S3200000x1, .f32⟩
  | .hbm, ⟨92, _⟩ => ⟨S3200000x1, .f32⟩
  | .hbm, ⟨93, _⟩ => ⟨S_, .f32⟩
  | .hbm, ⟨94, _⟩ => ⟨S100000x1, .f32⟩
  | .hbm, ⟨95, _⟩ => ⟨S3200000x1, .i32⟩
  | .hbm, ⟨96, _⟩ => ⟨S100000x1, .f32⟩
  | .hbm, ⟨97, _⟩ => ⟨S1x1, .f32⟩
  | .hbm, ⟨98, _⟩ => ⟨S100000x1, .f32⟩
  | .local _ .vmem, ⟨0, _⟩ => ⟨S10000x16, .f32⟩
  | .local _ .vmem, ⟨1, _⟩ => ⟨S10000x16, .f32⟩
  | .local _ .vmem, ⟨2, _⟩ => ⟨S16x4, .f32⟩
  | .local _ .vmem, ⟨3, _⟩ => ⟨S10000x4, .f32⟩
  | .local _ .vmem, ⟨4, _⟩ => ⟨S10000x4, .f32⟩
  | .local _ .vmem, ⟨5, _⟩ => ⟨S4000x4, .f32⟩
  | .local _ .vmem, ⟨6, _⟩ => ⟨S4000x4, .f32⟩
  | .local _ .vmem, ⟨7, _⟩ => ⟨S4000x4, .f32⟩
  | .local _ .vmem, ⟨8, _⟩ => ⟨S4000x4, .f32⟩
  | .local _ .vmem, ⟨9, _⟩ => ⟨S4000x1, .f32⟩
  | .local _ .vmem, ⟨10, _⟩ => ⟨S4000x1, .f32⟩
  | .local _ .vmem, ⟨11, _⟩ => ⟨S1x4, .f32⟩
  | .local _ .vmem, ⟨12, _⟩ => ⟨S4000x4, .f32⟩
  | .local _ .vmem, ⟨13, _⟩ => ⟨S4000x4, .f32⟩
  | .local _ .vmem, ⟨14, _⟩ => ⟨S10000x4, .f32⟩
  | .local _ .vmem, ⟨15, _⟩ => ⟨S10000x4, .f32⟩
  | .local _ .vmem, ⟨16, _⟩ => ⟨S4x2, .f32⟩
  | .local _ .vmem, ⟨17, _⟩ => ⟨S10000x2, .f32⟩
  | .local _ .vmem, ⟨18, _⟩ => ⟨S10000x2, .f32⟩
  | .local _ .vmem, ⟨19, _⟩ => ⟨S4000x2, .f32⟩
  | .local _ .vmem, ⟨20, _⟩ => ⟨S4000x2, .f32⟩
  | .local _ .vmem, ⟨21, _⟩ => ⟨S4000x2, .f32⟩
  | .local _ .vmem, ⟨22, _⟩ => ⟨S4000x2, .f32⟩
  | .local _ .vmem, ⟨23, _⟩ => ⟨S4000x1, .f32⟩
  | .local _ .vmem, ⟨24, _⟩ => ⟨S4000x1, .f32⟩
  | .local _ .vmem, ⟨25, _⟩ => ⟨S1x2, .f32⟩
  | .local _ .vmem, ⟨26, _⟩ => ⟨S4000x2, .f32⟩
  | .local _ .vmem, ⟨27, _⟩ => ⟨S4000x2, .f32⟩
  | .local _ .vmem, ⟨28, _⟩ => ⟨S10000x2, .f32⟩
  | .local _ .vmem, ⟨29, _⟩ => ⟨S10000x2, .f32⟩
  | .local _ .vmem, ⟨30, _⟩ => ⟨S2x1, .f32⟩
  | .local _ .vmem, ⟨31, _⟩ => ⟨S10000x1, .f32⟩
  | .local _ .vmem, ⟨32, _⟩ => ⟨S10000x1, .f32⟩
  | .local _ .vmem, ⟨33, _⟩ => ⟨S4000x1, .f32⟩
  | .local _ .vmem, ⟨34, _⟩ => ⟨S4000x1, .f32⟩
  | .local _ .vmem, ⟨35, _⟩ => ⟨S4000x1, .f32⟩
  | .local _ .vmem, ⟨36, _⟩ => ⟨S4000x1, .f32⟩
  | .local _ .vmem, ⟨37, _⟩ => ⟨S4000x1, .f32⟩
  | .local _ .vmem, ⟨38, _⟩ => ⟨S4000x1, .f32⟩
  | .local _ .vmem, ⟨39, _⟩ => ⟨S1x1, .f32⟩
  | .local _ .vmem, ⟨40, _⟩ => ⟨S4000x1, .f32⟩
  | .local _ .vmem, ⟨41, _⟩ => ⟨S4000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x4_S16x4_0_0 : ∀ a, (![0, 0] : Fin 2 → Nat) a + S16x4.size a ≤ S16x4.size a
  h_S16x4 : 0 < S16x4.numel
  inb_S10000x4_S10000x4_0_0 : ∀ a, (![0, 0] : Fin 2 → Nat) a + S10000x4.size a ≤ S10000x4.size a
  h_S10000x4 : 0 < S10000x4.numel
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  shapeCasts_S4_S1x4 : S4.ShapeCasts S1x4
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x4 : S4000x1.Broadcasts S4000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  shapeCasts_S10000x4_S10000x4 : S10000x4.ShapeCasts S10000x4
  inb_S4x2_S4x2_0_0 : ∀ a, (![0, 0] : Fin 2 → Nat) a + S4x2.size a ≤ S4x2.size a
  h_S4x2 : 0 < S4x2.numel
  inb_S10000x2_S10000x2_0_0 : ∀ a, (![0, 0] : Fin 2 → Nat) a + S10000x2.size a ≤ S10000x2.size a
  h_S10000x2 : 0 < S10000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  shapeCasts_S2_S1x2 : S2.ShapeCasts S1x2
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  broadcasts_S4000x1_S4000x2 : S4000x1.Broadcasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  shapeCasts_S10000x2_S10000x2 : S10000x2.ShapeCasts S10000x2
  inb_S2x1_S2x1_0_0 : ∀ a, (![0, 0] : Fin 2 → Nat) a + S2x1.size a ≤ S2x1.size a
  h_S2x1 : 0 < S2x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x16_S16x4_S10000x4_1_0_0_1_n_n_wf : DotDims.WF S10000x16 S16x4 S10000x4 [1] [0] [0] [1] [] []
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S10000x4_S4x2_S10000x2_1_0_0_1_n_n_wf : DotDims.WF S10000x4 S4x2 S10000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S10000x2_S2x1_S10000x1_1_0_0_1_n_n_wf : DotDims.WF S10000x2 S2x1 S10000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S16x4.size a
  hwx0_1 : ∀ i : grid0.Coords, EltTy.bits .f32 = 32 ∨ (Rect.block (s := S16x4) S16x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S100000x4.size a
  hwx0_2 : ∀ i : grid0.Coords, EltTy.bits .f32 = 32 ∨ (Rect.block (s := S100000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S100000x4.size a
  hwx1_0 : ∀ i : grid1.Coords, EltTy.bits .f32 = 32 ∨ (Rect.block (s := S100000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S100000x4.size a
  hwx1_1 : ∀ i : grid1.Coords, EltTy.bits .f32 = 32 ∨ (Rect.block (s := S100000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x4.size a ≤ S100000x4.size a
  hwx1_4 : ∀ i : grid1.Coords, EltTy.bits .f32 = 32 ∨ (Rect.block (s := S100000x4) S4000x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S100000x4.size a
  hwx2_0 : ∀ i : grid2.Coords, EltTy.bits .f32 = 32 ∨ (Rect.block (s := S100000x4) S10000x4.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x2.size a ≤ S4x2.size a
  hwx2_1 : ∀ i : grid2.Coords, EltTy.bits .f32 = 32 ∨ (Rect.block (s := S4x2) S4x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x2.size a ≤ S100000x2.size a
  hwx3_0 : ∀ i : grid3.Coords, EltTy.bits .f32 = 32 ∨ (Rect.block (s := S100000x2) S4000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x2.size a ≤ S100000x2.size a
  hwx3_1 : ∀ i : grid3.Coords, EltTy.bits .f32 = 32 ∨ (Rect.block (s := S100000x2) S4000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x2.size a ≤ S100000x2.size a
  hwx3_4 : ∀ i : grid3.Coords, EltTy.bits .f32 = 32 ∨ (Rect.block (s := S100000x2) S4000x2.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x2.size a ≤ S100000x2.size a
  hwx4_0 : ∀ i : grid4.Coords, EltTy.bits .f32 = 32 ∨ (Rect.block (s := S100000x2) S10000x2.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x1.size a ≤ S2x1.size a
  hwx4_1 : ∀ i : grid4.Coords, EltTy.bits .f32 = 32 ∨ (Rect.block (s := S2x1) S2x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x1.size a ≤ S100000x1.size a
  hwx5_0 : ∀ i : grid5.Coords, EltTy.bits .f32 = 32 ∨ (Rect.block (s := S100000x1) S4000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S100000x1.size a
  hwx5_1 : ∀ i : grid5.Coords, EltTy.bits .f32 = 32 ∨ (Rect.block (s := S100000x1) S4000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x1.size a ≤ S100000x1.size a
  hwx5_4 : ∀ i : grid5.Coords, EltTy.bits .f32 = 32 ∨ (Rect.block (s := S100000x1) S4000x1.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S10000x2_S2x1_S10000x1_1_0_0_1_n_n : DotDims S10000x2 S2x1 S10000x1 where
  lhsContracting := [1]
  rhsContracting := [0]
  lhsNonContracting := [0]
  rhsNonContracting := [1]
  lhsBatch := []
  rhsBatch := []
  wf := dot_S10000x2_S2x1_S10000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S4x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S4000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S4000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S10000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S2x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S4000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S4000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x16 : Shape := ⟨2, ![100000, 16]⟩
abbrev S2x3200000 : Shape := ⟨2, ![2, 3200000]⟩
abbrev S16x4 : Shape := ⟨2, ![16, 4]⟩
abbrev S4 : Shape := ⟨1, ![4]⟩
abbrev S4x2 : Shape := ⟨2, ![4, 2]⟩
abbrev S2 : Shape := ⟨1, ![2]⟩
abbrev S2x1 : Shape := ⟨2, ![2, 1]⟩
abbrev S1 : Shape := ⟨1, ![1]⟩
abbrev S100000x4 : Shape := ⟨2, ![100000, 4]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x4 : Shape := ⟨2, ![3200000, 4]⟩
abbrev S100000x1 : Shape := ⟨2, ![100000, 1]⟩
abbrev S1x4 : Shape := ⟨2, ![1, 4]⟩
abbrev S100000x2 : Shape := ⟨2, ![100000, 2]⟩
abbrev S3200000x2 : Shape := ⟨2, ![3200000, 2]⟩
abbrev S1x2 : Shape := ⟨2, ![1, 2]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S100000x16, .f32⟩
  | 1 => ⟨S2x3200000, .i32⟩
  | 2 => ⟨S16x4, .f32⟩
  | 3 => ⟨S4, .f32⟩
  | 4 => ⟨S4x2, .f32⟩
  | 5 => ⟨S2, .f32⟩
  | 6 => ⟨S2x1, .f32⟩
  | 7 => ⟨S1, .f32⟩
  | 8 => ⟨S100000x4, .f32⟩
  | 9 => ⟨S1x3200000, .i32⟩
  | 10 => ⟨S3200000, .i32⟩
  | 11 => ⟨S1x3200000, .i32⟩
  | 12 => ⟨S3200000, .i32⟩
  | 13 => ⟨S_, .f32⟩
  | 14 => ⟨S3200000, .f32⟩
  | 15 => ⟨S_, .f32⟩
  | 16 => ⟨S100000, .f32⟩
  | 17 => ⟨S3200000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x4, .f32⟩
  | 51 => ⟨S3200000x1, .f32⟩
  | 52 => ⟨S3200000x4, .f32⟩
  | 53 => ⟨S3200000x4, .f32⟩
  | 54 => ⟨S_, .f32⟩
  | 55 => ⟨S100000x4, .f32⟩
  | 56 => ⟨S3200000x1, .i32⟩
  | 57 => ⟨S100000x4, .f32⟩
  | 58 => ⟨S_, .f32⟩
  | 59 => ⟨S100000, .f32⟩
  | 60 => ⟨S100000, .f32⟩
  | 61 => ⟨S100000x1, .f32⟩
  | 62 => ⟨S100000x4, .f32⟩
  | 63 => ⟨S100000x4, .f32⟩
  | 64 => ⟨S100000x4, .f32⟩
  | 65 => ⟨S1x4, .f32⟩
  | 66 => ⟨S100000x4, .f32⟩
  | 67 => ⟨S100000x4, .f32⟩
  | 68 => ⟨S_, .f32⟩
  | 69 => ⟨S100000x4, .f32⟩
  | 70 => ⟨S100000x4, .f32⟩
  | 71 => ⟨S100000x2, .f32⟩
  | 72 => ⟨S1x3200000, .i32⟩
  | 73 => ⟨S3200000, .i32⟩
  | 74 => ⟨S1x3200000, .i32⟩
  | 75 => ⟨S3200000, .i32⟩
  | 76 => ⟨S_, .f32⟩
  | 77 => ⟨S3200000, .f32⟩
  | 78 => ⟨S_, .f32⟩
  | 79 => ⟨S100000, .f32⟩
  | 80 => ⟨S3200000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x2, .f32⟩
  | 114 => ⟨S3200000x1, .f32⟩
  | 115 => ⟨S3200000x2, .f32⟩
  | 116 => ⟨S3200000x2, .f32⟩
  | 117 => ⟨S_, .f32⟩
  | 118 => ⟨S100000x2, .f32⟩
  | 119 => ⟨S3200000x1, .i32⟩
  | 120 => ⟨S100000x2, .f32⟩
  | 121 => ⟨S_, .f32⟩
  | 122 => ⟨S100000, .f32⟩
  | 123 => ⟨S100000, .f32⟩
  | 124 => ⟨S100000x1, .f32⟩
  | 125 => ⟨S100000x2, .f32⟩
  | 126 => ⟨S100000x2, .f32⟩
  | 127 => ⟨S100000x2, .f32⟩
  | _ => ⟨S100000x16, .f32⟩

abbrev hbmTy0_1 (i : Nat) : BufTy := match i % 128 with
  | 0 => ⟨S1x2, .f32⟩
  | 1 => ⟨S100000x2, .f32⟩
  | 2 => ⟨S100000x2, .f32⟩
  | 3 => ⟨S_, .f32⟩
  | 4 => ⟨S100000x2, .f32⟩
  | 5 => ⟨S100000x2, .f32⟩
  | 6 => ⟨S100000x1, .f32⟩
  | 7 => ⟨S1x3200000, .i32⟩
  | 8 => ⟨S3200000, .i32⟩
  | 9 => ⟨S1x3200000, .i32⟩
  | 10 => ⟨S3200000, .i32⟩
  | 11 => ⟨S_, .f32⟩
  | 12 => ⟨S3200000, .f32⟩
  | 13 => ⟨S_, .f32⟩
  | 14 => ⟨S100000, .f32⟩
  | 15 => ⟨S3200000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S3200000, .f32⟩
  | 40 => ⟨S_, .i32⟩
  | 41 => ⟨S3200000, .i32⟩
  | 42 => ⟨S3200000, .i1⟩
  | 43 => ⟨S_, .i32⟩
  | 44 => ⟨S3200000, .i32⟩
  | 45 => ⟨S3200000, .i32⟩
  | 46 => ⟨S3200000, .i32⟩
  | 47 => ⟨S3200000x1, .i32⟩
  | 48 => ⟨S3200000x1, .f32⟩
  | 49 => ⟨S3200000x1, .f32⟩
  | 50 => ⟨S3200000x1, .f32⟩
  | 51 => ⟨S_, .f32⟩
  | 52 => ⟨S100000x1, .f32⟩
  | 53 => ⟨S3200000x1, .i32⟩
  | 54 => ⟨S100000x1, .f32⟩
  | 55 => ⟨S_, .f32⟩
  | 56 => ⟨S100000, .f32⟩
  | 57 => ⟨S100000, .f32⟩
  | 58 => ⟨S100000x1, .f32⟩
  | 59 => ⟨S100000x1, .f32⟩
  | 60 => ⟨S100000x1, .f32⟩
  | 61 => ⟨S1x1, .f32⟩
  | 62 => ⟨S100000x1, .f32⟩
  | 63 => ⟨S100000x1, .f32⟩
  | 64 => ⟨S100000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_c_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_16 : Ref sig .tc := ⟨.hbm, 105, rfl⟩
abbrev main_v77 : Ref sig .tc := ⟨.hbm, 106, rfl⟩
abbrev main_v78 : Ref sig .tc := ⟨.hbm, 107, rfl⟩
abbrev main_c_17 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_call1_cst : Ref sig .tc := ⟨.hbm, 131, rfl⟩
abbrev main_call1_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_20 : Ref sig .tc := ⟨.hbm, 139, rfl⟩
abbrev main_v105 : Ref sig .tc := ⟨.hbm, 140, rfl⟩
abbrev main_cst_21 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_c_24 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_25 : Ref sig .tc := ⟨.hbm, 158, rfl⟩
abbrev main_v119 : Ref sig .tc := ⟨.hbm, 159, rfl⟩
abbrev main_v120 : Ref sig .tc := ⟨.hbm, 160, rfl⟩
abbrev main_c_26 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_c_27 : Ref sig .tc := ⟨.hbm, 168, rfl⟩
abbrev main_v127 : Ref sig .tc := ⟨.hbm, 169, rfl⟩
abbrev main_v128 : Ref sig .tc := ⟨.hbm, 170, rfl⟩
abbrev main_c_28 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_29 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_30 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x4_0_1 : S3200000x1.BroadcastsInDim S3200000x4 (![0, 1] : Fin 2 → Fin S3200000x4.rank)
  bcast_S_S100000x4 : S_.BroadcastsInDim S100000x4 (![] : Fin 0 → Fin S100000x4.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x16_S16x4_S100000x4_1_0_0_1_n_n_wf : DotDims.WF S100000x16 S16x4 S100000x4 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x4_S3200000x1_S3200000x4_1_0_n_n_0_1_14_wf : GatherDims.WF S100000x4 S3200000x1 S3200000x4 [1] [0] [] [0] [] 1 ![1, 4]
  scatter_S100000x4_S3200000x1_S3200000x4_1_0_0_1_wf : ScatterDims.WF S100000x4 S3200000x1 S3200000x4 [1] [0] [0] 1
  dot_S100000x4_S4x2_S100000x2_1_0_0_1_n_n_wf : DotDims.WF S100000x4 S4x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x1_S100000x1_1_0_0_1_n_n_wf : DotDims.WF S100000x2 S2x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x1_S100000x1_1_0_0_1_n_n : DotDims S100000x2 S2x1 S100000x1 where
  lhsContracting := [1]
  rhsContracting := [0]
  lhsNonContracting := [0]
  rhsNonContracting := [1]
  lhsBatch := []
  rhsBatch := []
  wf := dot_S100000x2_S2x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KRun.lean ====
/-
  The idealized kernel's run with its result named.

  The program is six kernel launches among four stretches of host operations.  Its buffer contents at every boundary
  between two segments are a fold from the launch memory: a host stretch rewrites the buffers its operations write, a
  launch leaves in each of its arrays what its write-backs leave and every other buffer as it was.  Every weakly fair
  execution terminates without a fault, and the final state holds, at every buffer that outlives the launches, the last
  boundary's contents: in particular the result buffer holds the last boundary's contents there, and the arguments hold
  what they held at the launch.
-/
import proofs.«163405_j62706522521944_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.KEdges.lean ====
/-
  The parts of the computation that depend on the edge list alone, and the aggregation over incoming edges.

  The edge list is a `[2, E]` integer array: row 0 the source node of each edge, row 1 its target.  A node's degree
  is one (its self loop) plus the number of edges that point at it: a sum of ones scattered by target.  An edge's
  weight is the product of the inverse square roots of the degrees of its two ends (a negative node number counts
  from the end, as array indexing does).  Aggregating a node-feature matrix gathers the source row of every edge,
  scales it by the edge's weight and sums the scaled rows by target.
-/
import proofs.«163405_j62706522521944_1_alg».proof.Proof.Gen.KernelIdeal

noncomputable section

namespace Cert.KernelIdeal.Edges

open Idealize.ShloMosaic Cert.KernelIdeal Cert.KernelIdeal.Facts₀ Cert.KernelIdeal.Facts

variable {F : FTy → Type} [FloatOps F]

/-- The source node of every edge: row 0 of the edge list. -/
def rowOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge: row 1 of the edge list. -/
def colOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node number read as an array index: a negative one counts from the end. -/
def wrap (r : (⟨S3200000, .i32⟩ : BufTy).Contents (Elt F)) : (⟨S3200000, .i32⟩ : BufTy).Contents (Elt F) :=
  select (cmpi .slt r (broadcastInDim S3200000 ![] bcast_S_S3200000 (constantI S_ 32 0#32)))
    (addi r (broadcastInDim S3200000 ![] bcast_S_S3200000 (constantI S_ 32 100000#32))) r

/-- A list of node numbers as a column of one-entry index vectors. -/
def asIndex (r : (⟨S3200000, .i32⟩ : BufTy).Contents (Elt F)) : (⟨S3200000x1, .i32⟩ : BufTy).Contents (Elt F) :=
  broadcastInDim S3200000x1 ![0] bcast_S3200000_S3200000x1_0 r

/-- The degree of every node: the ones scattered by target node, plus one. -/
def deg (e : (⟨S2x3200000, .i32⟩ : BufTy).Contents (Elt F)) : (⟨S100000, .f32⟩ : BufTy).Contents (Elt F) :=
  addf (Host.scatterAdd scatter_S100000_S3200000x1_S3200000_n_0_0_1
      (broadcastInDim S100000 ![] bcast_S_S100000 (constant S_ .f32 0x00000000#32))
      (asIndex (colOf e))
      (broadcastInDim S3200000 ![] bcast_S_S3200000 (constant S_ .f32 0x3F800000#32)))
    (broadcastInDim S100000 ![] bcast_S_S100000 (constant S_ .f32 0x3F800000#32))

/-- The inverse square root of every node's degree. -/
def dinv (e : (⟨S2x3200000, .i32⟩ : BufTy).Contents (Elt F)) : (⟨S100000, .f32⟩ : BufTy).Contents (Elt F) :=
  Host.rsqrt (deg e)

/-- The weight of every edge: the product of the inverse square roots of its two ends' degrees. -/
def norm (e : (⟨S2x3200000, .i32⟩ : BufTy).Contents (Elt F)) : (⟨S3200000, .f32⟩ : BufTy).Contents (Elt F) :=
  mulf (Host.gather gather_S100000_S3200000x1_S3200000_n_0_n_n_0_1_1 (dinv e) (asIndex (wrap (rowOf e))))
    (Host.gather gather_S100000_S3200000x1_S3200000_n_0_n_n_0_1_1 (dinv e) (asIndex (wrap (colOf e))))

/-- The edge weights as a column. -/
def normCol (e : (⟨S2x3200000, .i32⟩ : BufTy).Contents (Elt F)) : (⟨S3200000x1, .f32⟩ : BufTy).Contents (Elt F) :=
  broadcastInDim S3200000x1 ![0] bcast_S3200000_S3200000x1_0 (norm e)

/-- Aggregation of a four-column node matrix over incoming edges. -/
def agg4 (e : (⟨S2x3200000, .i32⟩ : BufTy).Contents (Elt F)) (xw : (⟨S100000x4, .f32⟩ : BufTy).Contents (Elt F)) :
    (⟨S100000x4, .f32⟩ : BufTy).Contents (Elt F) :=
  Host.scatterAdd scatter_S100000x4_S3200000x1_S3200000x4_1_0_0_1
    (broadcastInDim S100000x4 ![] bcast_S_S100000x4 (constant S_ .f32 0x00000000#32))
    (asIndex (colOf e))
    (mulf (Host.gather gather_S100000x4_S3200000x1_S3200000x4_1_0_n_n_0_1_14 xw (asIndex (wrap (rowOf e))))
      (broadcastInDim S3200000x4 ![0, 1] bcast_S3200000x1_S3200000x4_0_1 (normCol e)))

/-- Aggregation of a two-column node matrix over incoming edges. -/
def agg2 (e : (⟨S2x3200000, .i32⟩ : BufTy).Contents (Elt F)) (xw : (⟨S100000x2, .f32⟩ : BufTy).Contents (Elt F)) :
    (⟨S100000x2, .f32⟩ : BufTy).Contents (Elt F) :=
  Host.scatterAdd scatter_S100000x2_S3200000x1_S3200000x2_1_0_0_1
    (broadcastInDim S100000x2 ![] bcast_S_S100000x2 (constant S_ .f32 0x00000000#32))
    (asIndex (colOf e))
    (mulf (Host.gather gather_S100000x2_S3200000x1_S3200000x2_1_0_n_n_0_1_12 xw (asIndex (wrap (rowOf e))))
      (broadcastInDim S3200000x2 ![0, 1] bcast_S3200000x1_S3200000x2_0_1 (normCol e)))

/-- Aggregation of a one-column node matrix over incoming edges. -/
def agg1 (e : (⟨S2x3200000, .i32⟩ : BufTy).Contents (Elt F)) (xw : (⟨S100000x1, .f32⟩ : BufTy).Contents (Elt F)) :
    (⟨S100000x1, .f32⟩ : BufTy).Contents (Elt F) :=
  Host.scatterAdd scatter_S100000x1_S3200000x1_S3200000x1_1_0_0_1
    (broadcastInDim S100000x1 ![] bcast_S_S100000x1 (constant S_ .f32 0x00000000#32))
    (asIndex (colOf e))
    (mulf (Host.gather gather_S100000x1_S3200000x1_S3200000x1_1_0_n_n_0_1_11 xw (asIndex (wrap (rowOf e))))
      (normCol e))

end Cert.KernelIdeal.Edges

end
-- ==== Proof.Spec.lean ====
/-
  The mathematics both programs compute, stated once over plain index types.

  One graph-convolution layer takes a node-feature matrix `x` (one row per node), a weight matrix `w`, a per-node
  scale `d` (a column), a bias `b` (a row) and a linear aggregation `agg` of node-feature matrices (the normalised
  sum over incoming edges, whatever the edge list is).  It forms the product `x · w`, adds to the aggregated product
  the product itself scaled row by row, adds the bias to every row, and applies an activation entry by entry.
  The network is three such layers: a rectifier after the first two and a hyperbolic tangent after the last.
-/
import Idealize.ShloMosaic.PureOps.Ideal
import Idealize.ShloMosaic.Lib.ValueIdx

noncomputable section

open scoped BigOperators

namespace GcnSpec

open Idealize.ShloMosaic Idealize.ShloMosaic.ValueIdx

/-- A matrix of extended reals with `a` rows and `b` columns, as a function of its index. -/
abbrev Mat (a b : ℕ) : Type := (⟨2, ![a, b]⟩ : Shape).Idx → EReal

/-- The product of an `[N, K]` matrix by a `[K, J]` matrix: at `(r, j)` the sum over `k` of `x (r, k) * w (k, j)`. -/
def prod {N K J : ℕ} (x : Mat N K) (w : Mat K J) : Mat N J :=
  fun i => ∑ k : Fin K, x (ix2 (i 0) k) * w (ix2 k (i 1))

theorem prod_apply {N K J : ℕ} (x : Mat N K) (w : Mat K J) (r : Fin N) (j : Fin J) :
    prod x w (ix2 r j) = ∑ k : Fin K, x (ix2 r k) * w (ix2 k j) := rfl

/-- Aggregated term plus the row-scaled term plus the bias row, then the activation: at `(r, j)` it is
    `act (A (r, j) + X (r, j) * D (r, 0) + B (0, j))`. -/
def comb {N J : ℕ} (act : EReal → EReal) (A X : Mat N J) (D : Mat N 1) (B : Mat 1 J) : Mat N J :=
  fun i => act (A i + X i * D (ix2 (i 0) (0 : Fin 1)) + B (ix2 (0 : Fin 1) (i 1)))

theorem comb_apply {N J : ℕ} (act : EReal → EReal) (A X : Mat N J) (D : Mat N 1) (B : Mat 1 J) (r : Fin N) (j : Fin J) :
    comb act A X D B (ix2 r j) = act (A (ix2 r j) + X (ix2 r j) * D (ix2 r (0 : Fin 1)) + B (ix2 (0 : Fin 1) j)) := rfl

/-- The rectifier: the larger of the value and the float zero word's value. -/
def relu (v : EReal) : EReal := max v (Ideal.ofBits .f32 0x00000000#32)

/-- One layer: the product, aggregated and combined. -/
def layer {N K J : ℕ} (act : EReal → EReal) (agg : Mat N J → Mat N J) (x : Mat N K) (w : Mat K J) (d : Mat N 1) (b : Mat 1 J) :
    Mat N J :=
  comb act (agg (prod x w)) (prod x w) d b

end GcnSpec

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.RegionLinear.lean ====
/-
  The three linear regions of the network, read as whole arrays.

  Each linear region multiplies the node matrix, ten thousand rows at a time, by the whole weight matrix: grid point
  `t` takes rows `10000 t … 10000 t + 9999` of the node matrix and every row of the weights, forms their product
  accumulated into zero, and writes it to the same rows of the output.  The ten blocks tile the output's hundred
  thousand rows, so after the region the output array is the product of the two arrays the region found, entry by
  entry: at `(r, j)` the sum over `k` of `x (r, k) * w (k, j)`.  The narrowing of the operands to a shorter float
  format is the identity on the extended reals.
-/
import proofs.«163405_j62706522521944_1_alg».proof.Proof.Gen.KernelIdeal.Frame
import proofs.«163405_j62706522521944_1_alg».proof.Proof.Spec
import proofs.«163405_j62706522521944_1_alg».proof.Proof.LibDotRows
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- Equal factors give equal products. -/
theorem linear_mul_congr {a a' b b' : EReal} (h1 : a = a') (h2 : b = b') : a * b = a' * b' := by rw [h1, h2]

/-- The offsets of a whole-buffer access are zero on both axes. -/
theorem linear_zero_offsets : (![0, 0] : Fin 2 → Nat) = fun _ => 0 := funext fun a => by fin_cases a <;> rfl

/-! ## The first linear region: `[100000, 16] · [16, 4]` -/

/-- The block indices at a grid point: the node block and the output block are block `t` of their arrays' rows and
    cover every column; the weights are one block. -/
theorem linear0_index : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What the body computes from a node block and the weights, at `(p, q)`: the product's entry. -/
theorem linear0_payload (x : Vec Ideal S10000x16 .f32) (w : Vec Ideal S16x4 .f32) (p : Fin 10000) (q : Fin 4) :
    k0_pay1 x w (ix2 p q) = ∑ k : Fin 16, x (ix2 p k) * w (ix2 k q) := by
  unfold k0_pay1
  exact matmul_zero_rows dot_S10000x16_S16x4_S10000x4_1_0_0_1_n_n none rfl rfl
    (fun _ _ => rfl) (fun _ _ => rfl) (fun _ _ => rfl) (fun _ _ => rfl)
    (truncf .bf16 x bitsLt_bf16_f32) (truncf .bf16 w bitsLt_bf16_f32) p q

/-- What grid point `t` writes back is block `t` of the product of the two arrays. -/
theorem linear0_flushed (t : Fin cfg0.N) :
    (dat0 (F := Ideal) V c).flushed 2 t
      = ((cfg0.win 2).blk t).view.read (Elt Ideal) (GcnSpec.prod (V c main_arg0) (V c main_arg2)) := by
  show (cfg0.win 2).cut (grid0.coords t) ((dat0 V c).after 2 t) = _
  rw [after0_2]
  unfold out0_2
  rw [View.canon_unit_zero linear_zero_offsets]
  simp only [View.ld_unit_zero (S := S10000x16) linear_zero_offsets, View.ld_unit_zero (S := S16x4) linear_zero_offsets]
  obtain ⟨e0, e1, e2, e3, e4, e5⟩ := linear0_index t
  have hN : grid0.N = 10 := N_0
  have ht : t.val < 10 := by have h : t.val < grid0.N := t.isLt; omega
  funext y
  obtain ⟨p, q, rfl⟩ : ∃ (p : Fin 10000) (q : Fin 4), y = ix2 p q := ⟨y 0, y 1, eq_ix2 y⟩
  refine (linear0_payload _ _ p q).trans ?_
  have hp : p.val < 10000 := p.isLt
  have hq : q.val < 4 := q.isLt
  -- row `p` of block `t` is row `10000 t + p` of the array
  obtain ⟨r, hr⟩ : ∃ r : Fin 100000, r.val = t.val * 10000 + p.val := ⟨⟨t.val * 10000 + p.val, by omega⟩, rfl⟩
  have hout : ((cfg0.win 2).blk t).view.emb (ix2 p q) = ix2 r q := by
    funext a; apply Fin.ext
    match a with
    | ⟨0, _⟩ => show win0_2.index t (0 : Fin 2) * 10000 + 1 * p.val = r.val; omega
    | ⟨1, _⟩ => show win0_2.index t (1 : Fin 2) * 4 + 1 * q.val = q.val; omega
  have hx : ∀ k : Fin 16, ((cfg0.win 0).blk t).view.emb (ix2 p k) = ix2 r k := fun k => by
    funext a; apply Fin.ext
    match a with
    | ⟨0, _⟩ => show win0_0.index t (0 : Fin 2) * 10000 + 1 * p.val = r.val; omega
    | ⟨1, _⟩ => show win0_0.index t (1 : Fin 2) * 16 + 1 * k.val = k.val; omega
  have hw : ∀ k : Fin 16, ((cfg0.win 1).blk t).view.emb (ix2 k q) = ix2 k q := fun k => by
    funext a; apply Fin.ext
    match a with
    | ⟨0, _⟩ => show win0_1.index t (0 : Fin 2) * 16 + 1 * k.val = k.val; omega
    | ⟨1, _⟩ => show win0_1.index t (1 : Fin 2) * 4 + 1 * q.val = q.val; omega
  show _ = GcnSpec.prod (V c main_arg0) (V c main_arg2) (((cfg0.win 2).blk t).view.emb (ix2 p q))
  rw [hout, GcnSpec.prod_apply]
  exact Finset.sum_congr rfl fun k _ =>
    linear_mul_congr (congrArg (V c main_arg0) (hx k)) (congrArg (V c main_arg2) (hw k))

/-- An index of the output array is in point `t`'s block iff each coordinate is in the block's range on its axis. -/
theorem linear0_mem_blk (t : Fin cfg0.N) (i : S100000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v28).slice (win0_2.rect t)).set ↔ _
  rw [View.set_slice_whole, Rect.mem_set_unit]
  exact Iff.rfl

/-- Every entry of the output array is in some point's block: row `r` is in block `r / 10000`. -/
theorem linear0_cover (i : S100000x4.Idx) :
    ∃ t : Fin cfg0.N, (cfg0.win 2).flush t = true ∧ i ∈ ((cfg0.win 2).blk t).view.set := by
  have hN : grid0.N = 10 := N_0
  have hi0 : (i 0).val < 100000 := idx2_lt0 i
  have hi1 : (i 1).val < 4 := idx2_lt1 i
  obtain ⟨t, ht⟩ : ∃ t : Fin cfg0.N, t.val = (i 0).val / 10000 :=
    ⟨⟨(i 0).val / 10000, by show (i 0).val / 10000 < grid0.N; omega⟩, rfl⟩
  obtain ⟨e0, e1, e2, e3, e4, e5⟩ := linear0_index t
  refine ⟨t, flush0_2 t, ?_⟩
  rw [linear0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 4 ≤ (i 1).val ∧ (i 1).val < win0_2.index t (1 : Fin 2) * 4 + 4; omega

/-- After the first linear region its output array is the product of the node matrix and the weights. -/
theorem region0 : (dat0 (F := Ideal) V c).arrAt 2 cfg0.N = GcnSpec.prod (V c main_arg0) (V c main_arg2) :=
  (dat0 V c).arrAt_eq_of_cover 2 (GcnSpec.prod (V c main_arg0) (V c main_arg2)) (fun t _ => linear0_flushed V c t) linear0_cover

/-! ## The second linear region: `[100000, 4] · [4, 2]` -/

/-- The block indices at a grid point: the node block and the output block are block `t` of their arrays' rows and
    cover every column; the weights are one block. -/
theorem linear2_index : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What the body computes from a node block and the weights, at `(p, q)`: the product's entry. -/
theorem linear2_payload (x : Vec Ideal S10000x4 .f32) (w : Vec Ideal S4x2 .f32) (p : Fin 10000) (q : Fin 2) :
    k2_pay1 x w (ix2 p q) = ∑ k : Fin 4, x (ix2 p k) * w (ix2 k q) := by
  unfold k2_pay1
  simp only [shapeCast_self]
  exact matmul_zero_rows dot_S10000x4_S4x2_S10000x2_1_0_0_1_n_n none rfl rfl
    (fun _ _ => rfl) (fun _ _ => rfl) (fun _ _ => rfl) (fun _ _ => rfl)
    (truncf .bf16 x bitsLt_bf16_f32) (truncf .bf16 w bitsLt_bf16_f32) p q

/-- What grid point `t` writes back is block `t` of the product of the two arrays. -/
theorem linear2_flushed (t : Fin cfg2.N) :
    (dat2 (F := Ideal) V c).flushed 2 t
      = ((cfg2.win 2).blk t).view.read (Elt Ideal) (GcnSpec.prod (V c main_v43) (V c main_arg4)) := by
  show (cfg2.win 2).cut (grid2.coords t) ((dat2 V c).after 2 t) = _
  rw [after2_2]
  unfold out2_2
  rw [View.canon_unit_zero linear_zero_offsets]
  simp only [View.ld_unit_zero (S := S10000x4) linear_zero_offsets, View.ld_unit_zero (S := S4x2) linear_zero_offsets]
  obtain ⟨e0, e1, e2, e3, e4, e5⟩ := linear2_index t
  have hN : grid2.N = 10 := N_2
  have ht : t.val < 10 := by have h : t.val < grid2.N := t.isLt; omega
  funext y
  obtain ⟨p, q, rfl⟩ : ∃ (p : Fin 10000) (q : Fin 2), y = ix2 p q := ⟨y 0, y 1, eq_ix2 y⟩
  refine (linear2_payload _ _ p q).trans ?_
  have hp : p.val < 10000 := p.isLt
  have hq : q.val < 2 := q.isLt
  -- row `p` of block `t` is row `10000 t + p` of the array
  obtain ⟨r, hr⟩ : ∃ r : Fin 100000, r.val = t.val * 10000 + p.val := ⟨⟨t.val * 10000 + p.val, by omega⟩, rfl⟩
  have hout : ((cfg2.win 2).blk t).view.emb (ix2 p q) = ix2 r q := by
    funext a; apply Fin.ext
    match a with
    | ⟨0, _⟩ => show win2_2.index t (0 : Fin 2) * 10000 + 1 * p.val = r.val; omega
    | ⟨1, _⟩ => show win2_2.index t (1 : Fin 2) * 2 + 1 * q.val = q.val; omega
  have hx : ∀ k : Fin 4, ((cfg2.win 0).blk t).view.emb (ix2 p k) = ix2 r k := fun k => by
    funext a; apply Fin.ext
    match a with
    | ⟨0, _⟩ => show win2_0.index t (0 : Fin 2) * 10000 + 1 * p.val = r.val; omega
    | ⟨1, _⟩ => show win2_0.index t (1 : Fin 2) * 4 + 1 * k.val = k.val; omega
  have hw : ∀ k : Fin 4, ((cfg2.win 1).blk t).view.emb (ix2 k q) = ix2 k q := fun k => by
    funext a; apply Fin.ext
    match a with
    | ⟨0, _⟩ => show win2_1.index t (0 : Fin 2) * 4 + 1 * k.val = k.val; omega
    | ⟨1, _⟩ => show win2_1.index t (1 : Fin 2) * 2 + 1 * q.val = q.val; omega
  show _ = GcnSpec.prod (V c main_v43) (V c main_arg4) (((cfg2.win 2).blk t).view.emb (ix2 p q))
  rw [hout, GcnSpec.prod_apply]
  exact Finset.sum_congr rfl fun k _ =>
    linear_mul_congr (congrArg (V c main_v43) (hx k)) (congrArg (V c main_arg4) (hw k))

/-- An index of the output array is in point `t`'s block iff each coordinate is in the block's range on its axis. -/
theorem linear2_mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v44).slice (win2_2.rect t)).set ↔ _
  rw [View.set_slice_whole, Rect.mem_set_unit]
  exact Iff.rfl

/-- Every entry of the output array is in some point's block: row `r` is in block `r / 10000`. -/
theorem linear2_cover (i : S100000x2.Idx) :
    ∃ t : Fin cfg2.N, (cfg2.win 2).flush t = true ∧ i ∈ ((cfg2.win 2).blk t).view.set := by
  have hN : grid2.N = 10 := N_2
  have hi0 : (i 0).val < 100000 := idx2_lt0 i
  have hi1 : (i 1).val < 2 := idx2_lt1 i
  obtain ⟨t, ht⟩ : ∃ t : Fin cfg2.N, t.val = (i 0).val / 10000 :=
    ⟨⟨(i 0).val / 10000, by show (i 0).val / 10000 < grid2.N; omega⟩, rfl⟩
  obtain ⟨e0, e1, e2, e3, e4, e5⟩ := linear2_index t
  refine ⟨t, flush2_2 t, ?_⟩
  rw [linear2_mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 2 ≤ (i 1).val ∧ (i 1).val < win2_2.index t (1 : Fin 2) * 2 + 2; omega

/-- After the second linear region its output array is the product of the node matrix and the weights. -/
theorem region2 : (dat2 (F := Ideal) V c).arrAt 2 cfg2.N = GcnSpec.prod (V c main_v43) (V c main_arg4) :=
  (dat2 V c).arrAt_eq_of_cover 2 (GcnSpec.prod (V c main_v43) (V c main_arg4)) (fun t _ => linear2_flushed V c t) linear2_cover

/-! ## The third linear region: `[100000, 2] · [2, 1]` -/

/-- The block indices at a grid point: the node block and the output block are block `t` of their arrays' rows and
    cover every column; the weights are one block. -/
theorem linear4_index : ∀ t : Fin cfg4.N,
    win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- What the body computes from a node block and the weights, at `(p, q)`: the product's entry. -/
theorem linear4_payload (x : Vec Ideal S10000x2 .f32) (w : Vec Ideal S2x1 .f32) (p : Fin 10000) (q : Fin 1) :
    k4_pay1 x w (ix2 p q) = ∑ k : Fin 2, x (ix2 p k) * w (ix2 k q) := by
  unfold k4_pay1
  simp only [shapeCast_self]
  exact matmul_zero_rows dot_S10000x2_S2x1_S10000x1_1_0_0_1_n_n none rfl rfl
    (fun _ _ => rfl) (fun _ _ => rfl) (fun _ _ => rfl) (fun _ _ => rfl)
    (truncf .bf16 x bitsLt_bf16_f32) (truncf .bf16 w bitsLt_bf16_f32) p q

/-- What grid point `t` writes back is block `t` of the product of the two arrays. -/
theorem linear4_flushed (t : Fin cfg4.N) :
    (dat4 (F := Ideal) V c).flushed 2 t
      = ((cfg4.win 2).blk t).view.read (Elt Ideal) (GcnSpec.prod (V c main_v59) (V c main_arg6)) := by
  show (cfg4.win 2).cut (grid4.coords t) ((dat4 V c).after 2 t) = _
  rw [after4_2]
  unfold out4_2
  rw [View.canon_unit_zero linear_zero_offsets]
  simp only [View.ld_unit_zero (S := S10000x2) linear_zero_offsets, View.ld_unit_zero (S := S2x1) linear_zero_offsets]
  obtain ⟨e0, e1, e2, e3, e4, e5⟩ := linear4_index t
  have hN : grid4.N = 10 := N_4
  have ht : t.val < 10 := by have h : t.val < grid4.N := t.isLt; omega
  funext y
  obtain ⟨p, q, rfl⟩ : ∃ (p : Fin 10000) (q : Fin 1), y = ix2 p q := ⟨y 0, y 1, eq_ix2 y⟩
  refine (linear4_payload _ _ p q).trans ?_
  have hp : p.val < 10000 := p.isLt
  have hq : q.val < 1 := q.isLt
  -- row `p` of block `t` is row `10000 t + p` of the array
  obtain ⟨r, hr⟩ : ∃ r : Fin 100000, r.val = t.val * 10000 + p.val := ⟨⟨t.val * 10000 + p.val, by omega⟩, rfl⟩
  have hout : ((cfg4.win 2).blk t).view.emb (ix2 p q) = ix2 r q := by
    funext a; apply Fin.ext
    match a with
    | ⟨0, _⟩ => show win4_2.index t (0 : Fin 2) * 10000 + 1 * p.val = r.val; omega
    | ⟨1, _⟩ => show win4_2.index t (1 : Fin 2) * 1 + 1 * q.val = q.val; omega
  have hx : ∀ k : Fin 2, ((cfg4.win 0).blk t).view.emb (ix2 p k) = ix2 r k := fun k => by
    funext a; apply Fin.ext
    match a with
    | ⟨0, _⟩ => show win4_0.index t (0 : Fin 2) * 10000 + 1 * p.val = r.val; omega
    | ⟨1, _⟩ => show win4_0.index t (1 : Fin 2) * 2 + 1 * k.val = k.val; omega
  have hw : ∀ k : Fin 2, ((cfg4.win 1).blk t).view.emb (ix2 k q) = ix2 k q := fun k => by
    funext a; apply Fin.ext
    match a with
    | ⟨0, _⟩ => show win4_1.index t (0 : Fin 2) * 2 + 1 * k.val = k.val; omega
    | ⟨1, _⟩ => show win4_1.index t (1 : Fin 2) * 1 + 1 * q.val = q.val; omega
  show _ = GcnSpec.prod (V c main_v59) (V c main_arg6) (((cfg4.win 2).blk t).view.emb (ix2 p q))
  rw [hout, GcnSpec.prod_apply]
  exact Finset.sum_congr rfl fun k _ =>
    linear_mul_congr (congrArg (V c main_v59) (hx k)) (congrArg (V c main_arg6) (hw k))

/-- An index of the output array is in point `t`'s block iff each coordinate is in the block's range on its axis. -/
theorem linear4_mem_blk (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v60).slice (win4_2.rect t)).set ↔ _
  rw [View.set_slice_whole, Rect.mem_set_unit]
  exact Iff.rfl

/-- Every entry of the output array is in some point's block: row `r` is in block `r / 10000`. -/
theorem linear4_cover (i : S100000x1.Idx) :
    ∃ t : Fin cfg4.N, (cfg4.win 2).flush t = true ∧ i ∈ ((cfg4.win 2).blk t).view.set := by
  have hN : grid4.N = 10 := N_4
  have hi0 : (i 0).val < 100000 := idx2_lt0 i
  have hi1 : (i 1).val < 1 := idx2_lt1 i
  obtain ⟨t, ht⟩ : ∃ t : Fin cfg4.N, t.val = (i 0).val / 10000 :=
    ⟨⟨(i 0).val / 10000, by show (i 0).val / 10000 < grid4.N; omega⟩, rfl⟩
  obtain ⟨e0, e1, e2, e3, e4, e5⟩ := linear4_index t
  refine ⟨t, flush4_2 t, ?_⟩
  rw [linear4_mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- After the third linear region its output array is the product of the node matrix and the weights. -/
theorem region4 : (dat4 (F := Ideal) V c).arrAt 2 cfg4.N = GcnSpec.prod (V c main_v59) (V c main_arg6) :=
  (dat4 V c).arrAt_eq_of_cover 2 (GcnSpec.prod (V c main_v59) (V c main_arg6)) (fun t _ => linear4_flushed V c t) linear4_cover

end Cert.KernelIdeal.RegionValue

end
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.RegionCombine.lean ====
/-
  The three combine regions of the network, read as whole arrays.

  Each combine region works on four thousand rows at a time: grid point `t` takes rows `4000 t … 4000 t + 3999` of
  the aggregated term, of the product and of the per-node scale (a column), and the whole bias row; at `(p, q)` of
  the block it adds to the aggregated entry the product's entry times the row's scale and the bias of column `q`,
  applies the activation, and writes the block to the same rows of the output.  The twenty-five blocks tile the
  output's hundred thousand rows, so after the region the output array is that combination of the arrays the region
  found, entry by entry.
-/
import proofs.«163405_j62706522521944_1_alg».proof.Proof.Gen.KernelIdeal.Frame
import proofs.«163405_j62706522521944_1_alg».proof.Proof.Spec
import proofs.«163405_j62706522521944_1_alg».proof.Proof.LibLayout2
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-- The offsets of a whole-buffer access are zero on both axes. -/
theorem combine_zero_offsets : (![0, 0] : Fin 2 → Nat) = fun _ => 0 := funext fun a => by fin_cases a <;> rfl

/-- A hyperbolic tangent of a vector, read at an index, is the tangent of the entry. -/
theorem combine_tanh_apply {s : Shape} {φ : FTy} (v : FVec Ideal s φ) (i : s.Idx) : tanh v i = Ideal.tanh (v i) := rfl

/-- Equal entries give equal combinations, whatever the activation. -/
theorem combine_congr (act : EReal → EReal) {a a' x x' d d' b b' : EReal} (h1 : a = a') (h2 : x = x') (h3 : d = d')
    (h4 : b = b') : act (a + x * d + b) = act (a' + x' * d' + b') := by rw [h1, h2, h3, h4]

/-! ## The first combine region: `[100000, 4]`, the rectifier -/

/-- The block indices at a grid point: the aggregated block, the product block, the scale block and the output
    block are block `t` of their arrays' rows and cover every column; the bias row is one block. -/
theorem combine1_index : ∀ t : Fin cfg1.N,
    win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) = t.val :=
  (by decide +kernel : ∀ t : Fin grid1.N, _)

/-- What the body computes from the four blocks, at `(p, q)`: the rectified combination of the entries. -/
theorem combine1_payload (a x : Vec Ideal S4000x4 .f32) (d : Vec Ideal S4000x1 .f32) (b : Vec Ideal S1x4 .f32)
    (p : Fin 4000) (q : Fin 4) :
    k1_pay1 a x d b (ix2 p q)
      = GcnSpec.relu (a (ix2 p q) + x (ix2 p q) * d (ix2 p (0 : Fin 1)) + b (ix2 (0 : Fin 1) q)) := by
  unfold k1_pay1
  simp only [shapeCast_self]
  rw [maximumf_apply, addf_apply, addf_apply, mulf_apply, broadcast_apply, Layout2.broadcastTo_col_apply,
    broadcastTo_1b_ab_apply]
  rfl

/-- What grid point `t` writes back is block `t` of the combination of the four arrays. -/
theorem combine1_flushed (t : Fin cfg1.N) :
    (dat1 (F := Ideal) V c).flushed 4 t
      = ((cfg1.win 4).blk t).view.read (Elt Ideal)
          (GcnSpec.comb GcnSpec.relu (V c main_v41) (V c main_v28) (V c main_v27) (V c main_v42)) := by
  show (cfg1.win 4).cut (grid1.coords t) ((dat1 V c).after 4 t) = _
  rw [after1_4]
  unfold out1_4
  rw [View.canon_unit_zero combine_zero_offsets]
  simp only [View.ld_unit_zero (S := S4000x4) combine_zero_offsets, View.ld_unit_zero (S := S4000x1) combine_zero_offsets,
    View.ld_unit_zero (S := S1x4) combine_zero_offsets]
  obtain ⟨e0, e1, e2, e3, e4, e5, e6, e7, e8, e9⟩ := combine1_index t
  have hN : grid1.N = 25 := N_1
  have ht : t.val < 25 := by have h : t.val < grid1.N := t.isLt; omega
  funext y
  obtain ⟨p, q, rfl⟩ : ∃ (p : Fin 4000) (q : Fin 4), y = ix2 p q := ⟨y 0, y 1, eq_ix2 y⟩
  refine (combine1_payload _ _ _ _ p q).trans ?_
  have hp : p.val < 4000 := p.isLt
  have hq : q.val < 4 := q.isLt
  -- row `p` of block `t` is row `4000 t + p` of the array
  obtain ⟨r, hr⟩ : ∃ r : Fin 100000, r.val = t.val * 4000 + p.val := ⟨⟨t.val * 4000 + p.val, by omega⟩, rfl⟩
  have hout : ((cfg1.win 4).blk t).view.emb (ix2 p q) = ix2 r q := by
    funext a; apply Fin.ext
    match a with
    | ⟨0, _⟩ => show win1_4.index t (0 : Fin 2) * 4000 + 1 * p.val = r.val; omega
    | ⟨1, _⟩ => show win1_4.index t (1 : Fin 2) * 4 + 1 * q.val = q.val; omega
  have ha : ((cfg1.win 0).blk t).view.emb (ix2 p q) = ix2 r q := by
    funext a; apply Fin.ext
    match a with
    | ⟨0, _⟩ => show win1_0.index t (0 : Fin 2) * 4000 + 1 * p.val = r.val; omega
    | ⟨1, _⟩ => show win1_0.index t (1 : Fin 2) * 4 + 1 * q.val = q.val; omega
  have hx : ((cfg1.win 1).blk t).view.emb (ix2 p q) = ix2 r q := by
    funext a; apply Fin.ext
    match a with
    | ⟨0, _⟩ => show win1_1.index t (0 : Fin 2) * 4000 + 1 * p.val = r.val; omega
    | ⟨1, _⟩ => show win1_1.index t (1 : Fin 2) * 4 + 1 * q.val = q.val; omega
  have hd : ((cfg1.win 2).blk t).view.emb (ix2 p (0 : Fin 1)) = ix2 r (0 : Fin 1) := by
    funext a; apply Fin.ext
    match a with
    | ⟨0, _⟩ => show win1_2.index t (0 : Fin 2) * 4000 + 1 * p.val = r.val; omega
    | ⟨1, _⟩ => show win1_2.index t (1 : Fin 2) * 1 + 1 * 0 = 0; omega
  have hb : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 4 + 1 * q.val = q.val; omega
  show _ = GcnSpec.comb GcnSpec.relu (V c main_v41) (V c main_v28) (V c main_v27) (V c main_v42)
    (((cfg1.win 4).blk t).view.emb (ix2 p q))
  rw [hout, GcnSpec.comb_apply]
  exact combine_congr GcnSpec.relu (congrArg (V c main_v41) ha) (congrArg (V c main_v28) hx)
    (congrArg (V c main_v27) hd) (congrArg (V c main_v42) hb)

/-- An index of the output array is in point `t`'s block iff each coordinate is in the block's range on its axis. -/
theorem combine1_mem_blk (t : Fin cfg1.N) (i : S100000x4.Idx) :
    i ∈ ((cfg1.win 4).blk t).view.set ↔ ∀ a : Fin 2, win1_4.index t a * S4000x4.size a ≤ (i a).val ∧ (i a).val < win1_4.index t a * S4000x4.size a + S4000x4.size a := by
  show i ∈ ((View.whole main_v43).slice (win1_4.rect t)).set ↔ _
  rw [View.set_slice_whole, Rect.mem_set_unit]
  exact Iff.rfl

/-- Every entry of the output array is in some point's block: row `r` is in block `r / 4000`. -/
theorem combine1_cover (i : S100000x4.Idx) :
    ∃ t : Fin cfg1.N, (cfg1.win 4).flush t = true ∧ i ∈ ((cfg1.win 4).blk t).view.set := by
  have hN : grid1.N = 25 := N_1
  have hi0 : (i 0).val < 100000 := idx2_lt0 i
  have hi1 : (i 1).val < 4 := idx2_lt1 i
  obtain ⟨t, ht⟩ : ∃ t : Fin cfg1.N, t.val = (i 0).val / 4000 :=
    ⟨⟨(i 0).val / 4000, by show (i 0).val / 4000 < grid1.N; omega⟩, rfl⟩
  obtain ⟨e0, e1, e2, e3, e4, e5, e6, e7, e8, e9⟩ := combine1_index t
  refine ⟨t, flush1_4 t, ?_⟩
  rw [combine1_mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 4 ≤ (i 1).val ∧ (i 1).val < win1_4.index t (1 : Fin 2) * 4 + 4; omega

/-- After the first combine region its output array is the rectified combination of the four arrays. -/
theorem region1 : (dat1 (F := Ideal) V c).arrAt 4 cfg1.N
    = GcnSpec.comb GcnSpec.relu (V c main_v41) (V c main_v28) (V c main_v27) (V c main_v42) :=
  (dat1 V c).arrAt_eq_of_cover 4 (GcnSpec.comb GcnSpec.relu (V c main_v41) (V c main_v28) (V c main_v27) (V c main_v42))
    (fun t _ => combine1_flushed V c t) combine1_cover

/-! ## The second combine region: `[100000, 2]`, the rectifier -/

/-- The block indices at a grid point: the aggregated block, the product block, the scale block and the output
    block are block `t` of their arrays' rows and cover every column; the bias row is one block. -/
theorem combine3_index : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) = t.val :=
  (by decide +kernel : ∀ t : Fin grid3.N, _)

/-- What the body computes from the four blocks, at `(p, q)`: the rectified combination of the entries. -/
theorem combine3_payload (a x : Vec Ideal S4000x2 .f32) (d : Vec Ideal S4000x1 .f32) (b : Vec Ideal S1x2 .f32)
    (p : Fin 4000) (q : Fin 2) :
    k3_pay1 a x d b (ix2 p q)
      = GcnSpec.relu (a (ix2 p q) + x (ix2 p q) * d (ix2 p (0 : Fin 1)) + b (ix2 (0 : Fin 1) q)) := by
  unfold k3_pay1
  simp only [shapeCast_self]
  rw [maximumf_apply, addf_apply, addf_apply, mulf_apply, broadcast_apply, Layout2.broadcastTo_col_apply,
    broadcastTo_1b_ab_apply]
  rfl

/-- What grid point `t` writes back is block `t` of the combination of the four arrays. -/
theorem combine3_flushed (t : Fin cfg3.N) :
    (dat3 (F := Ideal) V c).flushed 4 t
      = ((cfg3.win 4).blk t).view.read (Elt Ideal)
          (GcnSpec.comb GcnSpec.relu (V c main_v57) (V c main_v44) (V c main_v27) (V c main_v58)) := by
  show (cfg3.win 4).cut (grid3.coords t) ((dat3 V c).after 4 t) = _
  rw [after3_4]
  unfold out3_4
  rw [View.canon_unit_zero combine_zero_offsets]
  simp only [View.ld_unit_zero (S := S4000x2) combine_zero_offsets, View.ld_unit_zero (S := S4000x1) combine_zero_offsets,
    View.ld_unit_zero (S := S1x2) combine_zero_offsets]
  obtain ⟨e0, e1, e2, e3, e4, e5, e6, e7, e8, e9⟩ := combine3_index t
  have hN : grid3.N = 25 := N_3
  have ht : t.val < 25 := by have h : t.val < grid3.N := t.isLt; omega
  funext y
  obtain ⟨p, q, rfl⟩ : ∃ (p : Fin 4000) (q : Fin 2), y = ix2 p q := ⟨y 0, y 1, eq_ix2 y⟩
  refine (combine3_payload _ _ _ _ p q).trans ?_
  have hp : p.val < 4000 := p.isLt
  have hq : q.val < 2 := q.isLt
  -- row `p` of block `t` is row `4000 t + p` of the array
  obtain ⟨r, hr⟩ : ∃ r : Fin 100000, r.val = t.val * 4000 + p.val := ⟨⟨t.val * 4000 + p.val, by omega⟩, rfl⟩
  have hout : ((cfg3.win 4).blk t).view.emb (ix2 p q) = ix2 r q := by
    funext a; apply Fin.ext
    match a with
    | ⟨0, _⟩ => show win3_4.index t (0 : Fin 2) * 4000 + 1 * p.val = r.val; omega
    | ⟨1, _⟩ => show win3_4.index t (1 : Fin 2) * 2 + 1 * q.val = q.val; omega
  have ha : ((cfg3.win 0).blk t).view.emb (ix2 p q) = ix2 r q := by
    funext a; apply Fin.ext
    match a with
    | ⟨0, _⟩ => show win3_0.index t (0 : Fin 2) * 4000 + 1 * p.val = r.val; omega
    | ⟨1, _⟩ => show win3_0.index t (1 : Fin 2) * 2 + 1 * q.val = q.val; omega
  have hx : ((cfg3.win 1).blk t).view.emb (ix2 p q) = ix2 r q := by
    funext a; apply Fin.ext
    match a with
    | ⟨0, _⟩ => show win3_1.index t (0 : Fin 2) * 4000 + 1 * p.val = r.val; omega
    | ⟨1, _⟩ => show win3_1.index t (1 : Fin 2) * 2 + 1 * q.val = q.val; omega
  have hd : ((cfg3.win 2).blk t).view.emb (ix2 p (0 : Fin 1)) = ix2 r (0 : Fin 1) := by
    funext a; apply Fin.ext
    match a with
    | ⟨0, _⟩ => show win3_2.index t (0 : Fin 2) * 4000 + 1 * p.val = r.val; omega
    | ⟨1, _⟩ => show win3_2.index t (1 : Fin 2) * 1 + 1 * 0 = 0; omega
  have hb : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 2 + 1 * q.val = q.val; omega
  show _ = GcnSpec.comb GcnSpec.relu (V c main_v57) (V c main_v44) (V c main_v27) (V c main_v58)
    (((cfg3.win 4).blk t).view.emb (ix2 p q))
  rw [hout, GcnSpec.comb_apply]
  exact combine_congr GcnSpec.relu (congrArg (V c main_v57) ha) (congrArg (V c main_v44) hx)
    (congrArg (V c main_v27) hd) (congrArg (V c main_v58) hb)

/-- An index of the output array is in point `t`'s block iff each coordinate is in the block's range on its axis. -/
theorem combine3_mem_blk (t : Fin cfg3.N) (i : S100000x2.Idx) :
    i ∈ ((cfg3.win 4).blk t).view.set ↔ ∀ a : Fin 2, win3_4.index t a * S4000x2.size a ≤ (i a).val ∧ (i a).val < win3_4.index t a * S4000x2.size a + S4000x2.size a := by
  show i ∈ ((View.whole main_v59).slice (win3_4.rect t)).set ↔ _
  rw [View.set_slice_whole, Rect.mem_set_unit]
  exact Iff.rfl

/-- Every entry of the output array is in some point's block: row `r` is in block `r / 4000`. -/
theorem combine3_cover (i : S100000x2.Idx) :
    ∃ t : Fin cfg3.N, (cfg3.win 4).flush t = true ∧ i ∈ ((cfg3.win 4).blk t).view.set := by
  have hN : grid3.N = 25 := N_3
  have hi0 : (i 0).val < 100000 := idx2_lt0 i
  have hi1 : (i 1).val < 2 := idx2_lt1 i
  obtain ⟨t, ht⟩ : ∃ t : Fin cfg3.N, t.val = (i 0).val / 4000 :=
    ⟨⟨(i 0).val / 4000, by show (i 0).val / 4000 < grid3.N; omega⟩, rfl⟩
  obtain ⟨e0, e1, e2, e3, e4, e5, e6, e7, e8, e9⟩ := combine3_index t
  refine ⟨t, flush3_4 t, ?_⟩
  rw [combine3_mem_blk]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 2 ≤ (i 1).val ∧ (i 1).val < win3_4.index t (1 : Fin 2) * 2 + 2; omega

/-- After the second combine region its output array is the rectified combination of the four arrays. -/
theorem region3 : (dat3 (F := Ideal) V c).arrAt 4 cfg3.N
    = GcnSpec.comb GcnSpec.relu (V c main_v57) (V c main_v44) (V c main_v27) (V c main_v58) :=
  (dat3 V c).arrAt_eq_of_cover 4 (GcnSpec.comb GcnSpec.relu (V c main_v57) (V c main_v44) (V c main_v27) (V c main_v58))
    (fun t _ => combine3_flushed V c t) combine3_cover

/-! ## The third combine region: `[100000, 1]`, the hyperbolic tangent -/

/-- The block indices at a grid point: the aggregated block, the product block, the scale block and the output
    block are block `t` of their arrays' rows and cover every column; the bias row is one block. -/
theorem combine5_index : ∀ t : Fin cfg5.N,
    win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (1 : Fin 2) = 0
    ∧ win5_4.index t (0 : Fin 2) = t.val :=
  (by decide +kernel : ∀ t : Fin grid5.N, _)

/-- What the body computes from the four blocks, at `(p, q)`: the hyperbolic tangent of the combination of the entries. -/
theorem combine5_payload (a x d : Vec Ideal S4000x1 .f32) (b : Vec Ideal S1x1 .f32)
    (p : Fin 4000) (q : Fin 1) :
    k5_pay1 a x d b (ix2 p q)
      = Ideal.tanh (a (ix2 p q) + x (ix2 p q) * d (ix2 p q) + b (ix2 (0 : Fin 1) q)) := by
  unfold k5_pay1
  simp only [shapeCast_self]
  rw [combine_tanh_apply, addf_apply, addf_apply, mulf_apply, broadcastTo_1b_ab_apply]

/-- What grid point `t` writes back is block `t` of the combination of the four arrays. -/
theorem combine5_flushed (t : Fin cfg5.N) :
    (dat5 (F := Ideal) V c).flushed 4 t
      = ((cfg5.win 4).blk t).view.read (Elt Ideal)
          (GcnSpec.comb Ideal.tanh (V c main_v72) (V c main_v60) (V c main_v27) (V c main_v73)) := by
  show (cfg5.win 4).cut (grid5.coords t) ((dat5 V c).after 4 t) = _
  rw [after5_4]
  unfold out5_4
  rw [View.canon_unit_zero combine_zero_offsets]
  simp only [View.ld_unit_zero (S := S4000x1) combine_zero_offsets, View.ld_unit_zero (S := S1x1) combine_zero_offsets]
  obtain ⟨e0, e1, e2, e3, e4, e5, e6, e7, e8, e9⟩ := combine5_index t
  have hN : grid5.N = 25 := N_5
  have ht : t.val < 25 := by have h : t.val < grid5.N := t.isLt; omega
  funext y
  obtain ⟨p, q, rfl⟩ : ∃ (p : Fin 4000) (q : Fin 1), y = ix2 p q := ⟨y 0, y 1, eq_ix2 y⟩
  refine (combine5_payload _ _ _ _ p q).trans ?_
  have hp : p.val < 4000 := p.isLt
  have hq : q.val < 1 := q.isLt
  -- row `p` of block `t` is row `4000 t + p` of the array
  obtain ⟨r, hr⟩ : ∃ r : Fin 100000, r.val = t.val * 4000 + p.val := ⟨⟨t.val * 4000 + p.val, by omega⟩, rfl⟩
  have hout : ((cfg5.win 4).blk t).view.emb (ix2 p q) = ix2 r q := by
    funext a; apply Fin.ext
    match a with
    | ⟨0, _⟩ => show win5_4.index t (0 : Fin 2) * 4000 + 1 * p.val = r.val; omega
    | ⟨1, _⟩ => show win5_4.index t (1 : Fin 2) * 1 + 1 * q.val = q.val; omega
  have ha : ((cfg5.win 0).blk t).view.emb (ix2 p q) = ix2 r q := by
    funext a; apply Fin.ext
    match a with
    | ⟨0, _⟩ => show win5_0.index t (0 : Fin 2) * 4000 + 1 * p.val = r.val; omega
    | ⟨1, _⟩ => show win5_0.index t (1 : Fin 2) * 1 + 1 * q.val = q.val; omega
  have hx : ((cfg5.win 1).blk t).view.emb (ix2 p q) = ix2 r q := by
    funext a; apply Fin.ext
    match a with
    | ⟨0, _⟩ => show win5_1.index t (0 : Fin 2) * 4000 + 1 * p.val = r.val; omega
    | ⟨1, _⟩ => show win5_1.index t (1 : Fin 2) * 1 + 1 * q.val = q.val; omega
  have hd : ((cfg5.win 2).blk t).view.emb (ix2 p q) = ix2 r (0 : Fin 1) := by
    funext a; apply Fin.ext
    match a with
    | ⟨0, _⟩ => show win5_2.index t (0 : Fin 2) * 4000 + 1 * p.val = r.val; omega
    | ⟨1, _⟩ => show win5_2.index t (1 : Fin 2) * 1 + 1 * q.val = 0; omega
  have hb : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 1 + 1 * q.val = q.val; omega
  show _ = GcnSpec.comb Ideal.tanh (V c main_v72) (V c main_v60) (V c main_v27) (V c main_v73)
    (((cfg5.win 4).blk t).view.emb (ix2 p q))
  rw [hout, GcnSpec.comb_apply]
  exact combine_congr Ideal.tanh (congrArg (V c main_v72) ha) (congrArg (V c main_v60) hx)
    (congrArg (V c main_v27) hd) (congrArg (V c main_v73) hb)

/-- An index of the output array is in point `t`'s block iff each coordinate is in the block's range on its axis. -/
theorem combine5_mem_blk (t : Fin cfg5.N) (i : S100000x1.Idx) :
    i ∈ ((cfg5.win 4).blk t).view.set ↔ ∀ a : Fin 2, win5_4.index t a * S4000x1.size a ≤ (i a).val ∧ (i a).val < win5_4.index t a * S4000x1.size a + S4000x1.size a := by
  show i ∈ ((View.whole main_v74).slice (win5_4.rect t)).set ↔ _
  rw [View.set_slice_whole, Rect.mem_set_unit]
  exact Iff.rfl

/-- Every entry of the output array is in some point's block: row `r` is in block `r / 4000`. -/
theorem combine5_cover (i : S100000x1.Idx) :
    ∃ t : Fin cfg5.N, (cfg5.win 4).flush t = true ∧ i ∈ ((cfg5.win 4).blk t).view.set := by
  have hN : grid5.N = 25 := N_5
  have hi0 : (i 0).val < 100000 := idx2_lt0 i
  have hi1 : (i 1).val < 1 := idx2_lt1 i
  obtain ⟨t, ht⟩ : ∃ t : Fin cfg5.N, t.val = (i 0).val / 4000 :=
    ⟨⟨(i 0).val / 4000, by show (i 0).val / 4000 < grid5.N; omega⟩, rfl⟩
  obtain ⟨e0, e1, e2, e3, e4, e5, e6, e7, e8, e9⟩ := combine5_index t
  refine ⟨t, flush5_4 t, ?_⟩
  rw [combine5_mem_blk]
  intro a
  match a with
  | ⟨0, _⟩ => show win5_4.index t (0 : Fin 2) * 4000 ≤ (i 0).val ∧ (i 0).val < win5_4.index t (0 : Fin 2) * 4000 + 4000; omega
  | ⟨1, _⟩ => show win5_4.index t (1 : Fin 2) * 1 ≤ (i 1).val ∧ (i 1).val < win5_4.index t (1 : Fin 2) * 1 + 1; omega

/-- After the third combine region its output array is the hyperbolic tangent of the combination of the four arrays. -/
theorem region5 : (dat5 (F := Ideal) V c).arrAt 4 cfg5.N
    = GcnSpec.comb Ideal.tanh (V c main_v72) (V c main_v60) (V c main_v27) (V c main_v73) :=
  (dat5 V c).arrAt_eq_of_cover 4 (GcnSpec.comb Ideal.tanh (V c main_v72) (V c main_v60) (V c main_v27) (V c main_v73))
    (fun t _ => combine5_flushed V c t) combine5_cover

end Cert.KernelIdeal.RegionValue

end
-- ==== Proof.KBound.lean ====
/-
  The idealized kernel's buffer contents at each boundary between its segments, as functions of the argument arrays.

  The first host stretch computes, from the edge list alone, the source and target node of every edge, every edge's
  weight, and the per-node self-loop scale (the inverse square root of the degree times itself, as a column).  Each
  layer then is: a launch forming the product of the node matrix by the layer's weights; a host stretch aggregating
  that product over incoming edges and making the bias a row; a launch combining aggregated product, product, scale
  and bias and applying the activation.  Buffers a segment does not write keep their contents across it, which is
  how the edge data, the scale and the later layers' weights reach the segments that read them.
-/
import proofs.«163405_j62706522521944_1_alg».proof.Proof.Gen.KernelIdeal.Frame
import proofs.«163405_j62706522521944_1_alg».proof.Proof.KEdges
import proofs.«163405_j62706522521944_1_alg».proof.Proof.Spec
import proofs.«163405_j62706522521944_1_alg».proof.Proof.RegionLinear
import proofs.«163405_j62706522521944_1_alg».proof.Proof.RegionCombine
import Idealize.ShloMosaic.Lib.StableHlo.Run

set_option maxRecDepth 16384

noncomputable section

namespace Cert.KernelIdeal.KBound

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- The edge list as launched. -/
abbrev eArr : (⟨S2x3200000, .i32⟩ : BufTy).Contents (Elt Ideal) := m ((c : Thread nD τ).loc main_arg1)
/-- The node features, the three layers' weights and biases as launched. -/
abbrev xArr : GcnSpec.Mat 100000 16 := m ((c : Thread nD τ).loc main_arg0)
abbrev w1Arr : GcnSpec.Mat 16 4 := m ((c : Thread nD τ).loc main_arg2)
abbrev b1Arr : (⟨S4, .f32⟩ : BufTy).Contents (Elt Ideal) := m ((c : Thread nD τ).loc main_arg3)
abbrev w2Arr : GcnSpec.Mat 4 2 := m ((c : Thread nD τ).loc main_arg4)
abbrev b2Arr : (⟨S2, .f32⟩ : BufTy).Contents (Elt Ideal) := m ((c : Thread nD τ).loc main_arg5)
abbrev w3Arr : GcnSpec.Mat 2 1 := m ((c : Thread nD τ).loc main_arg6)
abbrev b3Arr : (⟨S1, .f32⟩ : BufTy).Contents (Elt Ideal) := m ((c : Thread nD τ).loc main_arg7)

/-- The self-loop scale: the inverse square root of every node's degree times itself, as a column. -/
def scaleCol (e : (⟨S2x3200000, .i32⟩ : BufTy).Contents (Elt Ideal)) : (⟨S100000x1, .f32⟩ : BufTy).Contents (Elt Ideal) :=
  shapeCast _ (mulf (Edges.dinv e) (Edges.dinv e)) shapeCasts_S100000_S100000x1

/-- A bias vector as a row. -/
def b1Row : GcnSpec.Mat 1 4 := shapeCast _ (b1Arr m c) shapeCasts_S4_S1x4
def b2Row : GcnSpec.Mat 1 2 := shapeCast _ (b2Arr m c) shapeCasts_S2_S1x2
def b3Row : GcnSpec.Mat 1 1 := shapeCast _ (b3Arr m c) shapeCasts_S1_S1x1

/-- The first layer's product and its output, the second's, the third's. -/
def prod1 : GcnSpec.Mat 100000 4 := GcnSpec.prod (xArr m c) (w1Arr m c)
def hid1 : GcnSpec.Mat 100000 4 :=
  GcnSpec.layer GcnSpec.relu (Edges.agg4 (eArr m c)) (xArr m c) (w1Arr m c) (scaleCol (eArr m c)) (b1Row m c)
def prod2 : GcnSpec.Mat 100000 2 := GcnSpec.prod (hid1 m c) (w2Arr m c)
def hid2 : GcnSpec.Mat 100000 2 :=
  GcnSpec.layer GcnSpec.relu (Edges.agg2 (eArr m c)) (hid1 m c) (w2Arr m c) (scaleCol (eArr m c)) (b2Row m c)
def prod3 : GcnSpec.Mat 100000 1 := GcnSpec.prod (hid2 m c) (w3Arr m c)
/-- The network's output as the kernel program computes it. -/
def outK : GcnSpec.Mat 100000 1 :=
  GcnSpec.layer Ideal.tanh (Edges.agg1 (eArr m c)) (hid2 m c) (w3Arr m c) (scaleCol (eArr m c)) (b3Row m c)

/-! ## After the first host stretch -/

theorem at1_v1 : W1 m ρ c (Proc.devRef .tc main_v1) = Edges.rowOf (eArr m c) := by
  show StableHlo.after hostOps0 (W0 m ρ c) (Proc.devRef .tc main_v1) = _
  after_results_simp
  rfl
theorem at1_v3 : W1 m ρ c (Proc.devRef .tc main_v3) = Edges.colOf (eArr m c) := by
  show StableHlo.after hostOps0 (W0 m ρ c) (Proc.devRef .tc main_v3) = _
  after_results_simp
  rfl
theorem at1_v25 : W1 m ρ c (Proc.devRef .tc main_v25) = Edges.norm (eArr m c) := by
  show StableHlo.after hostOps0 (W0 m ρ c) (Proc.devRef .tc main_v25) = _
  after_results_simp
  rfl
theorem at1_v27 : W1 m ρ c (Proc.devRef .tc main_v27) = scaleCol (eArr m c) := by
  show StableHlo.after hostOps0 (W0 m ρ c) (Proc.devRef .tc main_v27) = _
  after_results_simp
  rfl
theorem at1_arg0 : W1 m ρ c (Proc.devRef .tc main_arg0) = xArr m c := by
  show StableHlo.after hostOps0 (W0 m ρ c) (Proc.devRef .tc main_arg0) = _
  after_results_simp
theorem at1_arg2 : W1 m ρ c (Proc.devRef .tc main_arg2) = w1Arr m c := by
  show StableHlo.after hostOps0 (W0 m ρ c) (Proc.devRef .tc main_arg2) = _
  after_results_simp
theorem at1_arg3 : W1 m ρ c (Proc.devRef .tc main_arg3) = b1Arr m c := by
  show StableHlo.after hostOps0 (W0 m ρ c) (Proc.devRef .tc main_arg3) = _
  after_results_simp
theorem at1_arg4 : W1 m ρ c (Proc.devRef .tc main_arg4) = w2Arr m c := by
  show StableHlo.after hostOps0 (W0 m ρ c) (Proc.devRef .tc main_arg4) = _
  after_results_simp
theorem at1_arg5 : W1 m ρ c (Proc.devRef .tc main_arg5) = b2Arr m c := by
  show StableHlo.after hostOps0 (W0 m ρ c) (Proc.devRef .tc main_arg5) = _
  after_results_simp
theorem at1_arg6 : W1 m ρ c (Proc.devRef .tc main_arg6) = w3Arr m c := by
  show StableHlo.after hostOps0 (W0 m ρ c) (Proc.devRef .tc main_arg6) = _
  after_results_simp
theorem at1_arg7 : W1 m ρ c (Proc.devRef .tc main_arg7) = b3Arr m c := by
  show StableHlo.after hostOps0 (W0 m ρ c) (Proc.devRef .tc main_arg7) = _
  after_results_simp

/-! ## Boundary 2 -/

theorem at2_v1 : W2 m ρ c (Proc.devRef .tc main_v1) = Edges.rowOf (eArr m c) :=
  (W2_of_ne m ρ c main_v1 (by decide)).trans (at1_v1 m ρ c)
theorem at2_v3 : W2 m ρ c (Proc.devRef .tc main_v3) = Edges.colOf (eArr m c) :=
  (W2_of_ne m ρ c main_v3 (by decide)).trans (at1_v3 m ρ c)
theorem at2_v25 : W2 m ρ c (Proc.devRef .tc main_v25) = Edges.norm (eArr m c) :=
  (W2_of_ne m ρ c main_v25 (by decide)).trans (at1_v25 m ρ c)
theorem at2_v27 : W2 m ρ c (Proc.devRef .tc main_v27) = scaleCol (eArr m c) :=
  (W2_of_ne m ρ c main_v27 (by decide)).trans (at1_v27 m ρ c)
theorem at2_arg3 : W2 m ρ c (Proc.devRef .tc main_arg3) = b1Arr m c :=
  (W2_of_ne m ρ c main_arg3 (by decide)).trans (at1_arg3 m ρ c)
theorem at2_arg4 : W2 m ρ c (Proc.devRef .tc main_arg4) = w2Arr m c :=
  (W2_of_ne m ρ c main_arg4 (by decide)).trans (at1_arg4 m ρ c)
theorem at2_arg5 : W2 m ρ c (Proc.devRef .tc main_arg5) = b2Arr m c :=
  (W2_of_ne m ρ c main_arg5 (by decide)).trans (at1_arg5 m ρ c)
theorem at2_arg6 : W2 m ρ c (Proc.devRef .tc main_arg6) = w3Arr m c :=
  (W2_of_ne m ρ c main_arg6 (by decide)).trans (at1_arg6 m ρ c)
theorem at2_arg7 : W2 m ρ c (Proc.devRef .tc main_arg7) = b3Arr m c :=
  (W2_of_ne m ρ c main_arg7 (by decide)).trans (at1_arg7 m ρ c)
theorem at2_v28 : W2 m ρ c (Proc.devRef .tc main_v28) = prod1 m c := by
  refine (show W2 m ρ c (Proc.devRef .tc main_v28) = (dat0 (V1 m ρ) c).arrAt 2 cfg0.N from W2_arr m ρ c 2).trans ?_
  rw [RegionValue.region0]
  show GcnSpec.prod (W1 m ρ c (Proc.devRef .tc main_arg0)) (W1 m ρ c (Proc.devRef .tc main_arg2)) = _
  rw [at1_arg0 m ρ c, at1_arg2 m ρ c]
  rfl

/-! ## Boundary 3 -/

theorem at3_v28 : W3 m ρ c (Proc.devRef .tc main_v28) = prod1 m c := by
  show StableHlo.after hostOps1 (W2 m ρ c) (Proc.devRef .tc main_v28) = _
  after_results_simp
  exact at2_v28 m ρ c
theorem at3_v27 : W3 m ρ c (Proc.devRef .tc main_v27) = scaleCol (eArr m c) := by
  show StableHlo.after hostOps1 (W2 m ρ c) (Proc.devRef .tc main_v27) = _
  after_results_simp
  exact at2_v27 m ρ c
theorem at3_v1 : W3 m ρ c (Proc.devRef .tc main_v1) = Edges.rowOf (eArr m c) := by
  show StableHlo.after hostOps1 (W2 m ρ c) (Proc.devRef .tc main_v1) = _
  after_results_simp
  exact at2_v1 m ρ c
theorem at3_v3 : W3 m ρ c (Proc.devRef .tc main_v3) = Edges.colOf (eArr m c) := by
  show StableHlo.after hostOps1 (W2 m ρ c) (Proc.devRef .tc main_v3) = _
  after_results_simp
  exact at2_v3 m ρ c
theorem at3_v25 : W3 m ρ c (Proc.devRef .tc main_v25) = Edges.norm (eArr m c) := by
  show StableHlo.after hostOps1 (W2 m ρ c) (Proc.devRef .tc main_v25) = _
  after_results_simp
  exact at2_v25 m ρ c
theorem at3_arg4 : W3 m ρ c (Proc.devRef .tc main_arg4) = w2Arr m c := by
  show StableHlo.after hostOps1 (W2 m ρ c) (Proc.devRef .tc main_arg4) = _
  after_results_simp
  exact at2_arg4 m ρ c
theorem at3_arg5 : W3 m ρ c (Proc.devRef .tc main_arg5) = b2Arr m c := by
  show StableHlo.after hostOps1 (W2 m ρ c) (Proc.devRef .tc main_arg5) = _
  after_results_simp
  exact at2_arg5 m ρ c
theorem at3_arg6 : W3 m ρ c (Proc.devRef .tc main_arg6) = w3Arr m c := by
  show StableHlo.after hostOps1 (W2 m ρ c) (Proc.devRef .tc main_arg6) = _
  after_results_simp
  exact at2_arg6 m ρ c
theorem at3_arg7 : W3 m ρ c (Proc.devRef .tc main_arg7) = b3Arr m c := by
  show StableHlo.after hostOps1 (W2 m ρ c) (Proc.devRef .tc main_arg7) = _
  after_results_simp
  exact at2_arg7 m ρ c
theorem at3_v41 : W3 m ρ c (Proc.devRef .tc main_v41) = Edges.agg4 (eArr m c) (prod1 m c) := by
  show StableHlo.after hostOps1 (W2 m ρ c) (Proc.devRef .tc main_v41) = _
  after_results_simp
  rw [at2_v28 m ρ c, at2_v25 m ρ c, at2_v1 m ρ c, at2_v3 m ρ c]
  rfl
theorem at3_v42 : W3 m ρ c (Proc.devRef .tc main_v42) = b1Row m c := by
  show StableHlo.after hostOps1 (W2 m ρ c) (Proc.devRef .tc main_v42) = _
  after_results_simp
  rw [at2_arg3 m ρ c]
  rfl

/-! ## Boundary 4 -/

theorem at4_v27 : W4 m ρ c (Proc.devRef .tc main_v27) = scaleCol (eArr m c) :=
  (show W4 m ρ c (Proc.devRef .tc main_v27) = W3 m ρ c (Proc.devRef .tc main_v27) from
    (W4_arr m ρ c 2).trans (((dat1 (V3 m ρ) c).arrAt_in 2 rfl _).trans (A_eq1 (V3 m ρ) c 2))).trans (at3_v27 m ρ c)
theorem at4_v1 : W4 m ρ c (Proc.devRef .tc main_v1) = Edges.rowOf (eArr m c) :=
  (W4_of_ne m ρ c main_v1 (by decide)).trans (at3_v1 m ρ c)
theorem at4_v3 : W4 m ρ c (Proc.devRef .tc main_v3) = Edges.colOf (eArr m c) :=
  (W4_of_ne m ρ c main_v3 (by decide)).trans (at3_v3 m ρ c)
theorem at4_v25 : W4 m ρ c (Proc.devRef .tc main_v25) = Edges.norm (eArr m c) :=
  (W4_of_ne m ρ c main_v25 (by decide)).trans (at3_v25 m ρ c)
theorem at4_arg4 : W4 m ρ c (Proc.devRef .tc main_arg4) = w2Arr m c :=
  (W4_of_ne m ρ c main_arg4 (by decide)).trans (at3_arg4 m ρ c)
theorem at4_arg5 : W4 m ρ c (Proc.devRef .tc main_arg5) = b2Arr m c :=
  (W4_of_ne m ρ c main_arg5 (by decide)).trans (at3_arg5 m ρ c)
theorem at4_arg6 : W4 m ρ c (Proc.devRef .tc main_arg6) = w3Arr m c :=
  (W4_of_ne m ρ c main_arg6 (by decide)).trans (at3_arg6 m ρ c)
theorem at4_arg7 : W4 m ρ c (Proc.devRef .tc main_arg7) = b3Arr m c :=
  (W4_of_ne m ρ c main_arg7 (by decide)).trans (at3_arg7 m ρ c)
theorem at4_v43 : W4 m ρ c (Proc.devRef .tc main_v43) = hid1 m c := by
  refine (show W4 m ρ c (Proc.devRef .tc main_v43) = (dat1 (V3 m ρ) c).arrAt 4 cfg1.N from W4_arr m ρ c 4).trans ?_
  rw [RegionValue.region1]
  show GcnSpec.comb GcnSpec.relu (W3 m ρ c (Proc.devRef .tc main_v41)) (W3 m ρ c (Proc.devRef .tc main_v28)) (W3 m ρ c (Proc.devRef .tc main_v27)) (W3 m ρ c (Proc.devRef .tc main_v42)) = _
  rw [at3_v41 m ρ c, at3_v28 m ρ c, at3_v27 m ρ c, at3_v42 m ρ c]
  rfl

/-! ## Boundary 5 -/

theorem at5_v27 : W5 m ρ c (Proc.devRef .tc main_v27) = scaleCol (eArr m c) :=
  (W5_of_ne m ρ c main_v27 (by decide)).trans (at4_v27 m ρ c)
theorem at5_v1 : W5 m ρ c (Proc.devRef .tc main_v1) = Edges.rowOf (eArr m c) :=
  (W5_of_ne m ρ c main_v1 (by decide)).trans (at4_v1 m ρ c)
theorem at5_v3 : W5 m ρ c (Proc.devRef .tc main_v3) = Edges.colOf (eArr m c) :=
  (W5_of_ne m ρ c main_v3 (by decide)).trans (at4_v3 m ρ c)
theorem at5_v25 : W5 m ρ c (Proc.devRef .tc main_v25) = Edges.norm (eArr m c) :=
  (W5_of_ne m ρ c main_v25 (by decide)).trans (at4_v25 m ρ c)
theorem at5_arg5 : W5 m ρ c (Proc.devRef .tc main_arg5) = b2Arr m c :=
  (W5_of_ne m ρ c main_arg5 (by decide)).trans (at4_arg5 m ρ c)
theorem at5_arg6 : W5 m ρ c (Proc.devRef .tc main_arg6) = w3Arr m c :=
  (W5_of_ne m ρ c main_arg6 (by decide)).trans (at4_arg6 m ρ c)
theorem at5_arg7 : W5 m ρ c (Proc.devRef .tc main_arg7) = b3Arr m c :=
  (W5_of_ne m ρ c main_arg7 (by decide)).trans (at4_arg7 m ρ c)
theorem at5_v44 : W5 m ρ c (Proc.devRef .tc main_v44) = prod2 m c := by
  refine (show W5 m ρ c (Proc.devRef .tc main_v44) = (dat2 (V4 m ρ) c).arrAt 2 cfg2.N from W5_arr m ρ c 2).trans ?_
  rw [RegionValue.region2]
  show GcnSpec.prod (W4 m ρ c (Proc.devRef .tc main_v43)) (W4 m ρ c (Proc.devRef .tc main_arg4)) = _
  rw [at4_v43 m ρ c, at4_arg4 m ρ c]
  rfl

/-! ## Boundary 6 -/

theorem at6_v44 : W6 m ρ c (Proc.devRef .tc main_v44) = prod2 m c := by
  show StableHlo.after hostOps3 (W5 m ρ c) (Proc.devRef .tc main_v44) = _
  after_results_simp
  exact at5_v44 m ρ c
theorem at6_v27 : W6 m ρ c (Proc.devRef .tc main_v27) = scaleCol (eArr m c) := by
  show StableHlo.after hostOps3 (W5 m ρ c) (Proc.devRef .tc main_v27) = _
  after_results_simp
  exact at5_v27 m ρ c
theorem at6_v1 : W6 m ρ c (Proc.devRef .tc main_v1) = Edges.rowOf (eArr m c) := by
  show StableHlo.after hostOps3 (W5 m ρ c) (Proc.devRef .tc main_v1) = _
  after_results_simp
  exact at5_v1 m ρ c
theorem at6_v3 : W6 m ρ c (Proc.devRef .tc main_v3) = Edges.colOf (eArr m c) := by
  show StableHlo.after hostOps3 (W5 m ρ c) (Proc.devRef .tc main_v3) = _
  after_results_simp
  exact at5_v3 m ρ c
theorem at6_v25 : W6 m ρ c (Proc.devRef .tc main_v25) = Edges.norm (eArr m c) := by
  show StableHlo.after hostOps3 (W5 m ρ c) (Proc.devRef .tc main_v25) = _
  after_results_simp
  exact at5_v25 m ρ c
theorem at6_arg6 : W6 m ρ c (Proc.devRef .tc main_arg6) = w3Arr m c := by
  show StableHlo.after hostOps3 (W5 m ρ c) (Proc.devRef .tc main_arg6) = _
  after_results_simp
  exact at5_arg6 m ρ c
theorem at6_arg7 : W6 m ρ c (Proc.devRef .tc main_arg7) = b3Arr m c := by
  show StableHlo.after hostOps3 (W5 m ρ c) (Proc.devRef .tc main_arg7) = _
  after_results_simp
  exact at5_arg7 m ρ c
theorem at6_v57 : W6 m ρ c (Proc.devRef .tc main_v57) = Edges.agg2 (eArr m c) (prod2 m c) := by
  show StableHlo.after hostOps3 (W5 m ρ c) (Proc.devRef .tc main_v57) = _
  after_results_simp
  rw [at5_v44 m ρ c, at5_v25 m ρ c, at5_v1 m ρ c, at5_v3 m ρ c]
  rfl
theorem at6_v58 : W6 m ρ c (Proc.devRef .tc main_v58) = b2Row m c := by
  show StableHlo.after hostOps3 (W5 m ρ c) (Proc.devRef .tc main_v58) = _
  after_results_simp
  rw [at5_arg5 m ρ c]
  rfl

/-! ## Boundary 7 -/

theorem at7_v27 : W7 m ρ c (Proc.devRef .tc main_v27) = scaleCol (eArr m c) :=
  (show W7 m ρ c (Proc.devRef .tc main_v27) = W6 m ρ c (Proc.devRef .tc main_v27) from
    (W7_arr m ρ c 2).trans (((dat3 (V6 m ρ) c).arrAt_in 2 rfl _).trans (A_eq3 (V6 m ρ) c 2))).trans (at6_v27 m ρ c)
theorem at7_v1 : W7 m ρ c (Proc.devRef .tc main_v1) = Edges.rowOf (eArr m c) :=
  (W7_of_ne m ρ c main_v1 (by decide)).trans (at6_v1 m ρ c)
theorem at7_v3 : W7 m ρ c (Proc.devRef .tc main_v3) = Edges.colOf (eArr m c) :=
  (W7_of_ne m ρ c main_v3 (by decide)).trans (at6_v3 m ρ c)
theorem at7_v25 : W7 m ρ c (Proc.devRef .tc main_v25) = Edges.norm (eArr m c) :=
  (W7_of_ne m ρ c main_v25 (by decide)).trans (at6_v25 m ρ c)
theorem at7_arg6 : W7 m ρ c (Proc.devRef .tc main_arg6) = w3Arr m c :=
  (W7_of_ne m ρ c main_arg6 (by decide)).trans (at6_arg6 m ρ c)
theorem at7_arg7 : W7 m ρ c (Proc.devRef .tc main_arg7) = b3Arr m c :=
  (W7_of_ne m ρ c main_arg7 (by decide)).trans (at6_arg7 m ρ c)
theorem at7_v59 : W7 m ρ c (Proc.devRef .tc main_v59) = hid2 m c := by
  refine (show W7 m ρ c (Proc.devRef .tc main_v59) = (dat3 (V6 m ρ) c).arrAt 4 cfg3.N from W7_arr m ρ c 4).trans ?_
  rw [RegionValue.region3]
  show GcnSpec.comb GcnSpec.relu (W6 m ρ c (Proc.devRef .tc main_v57)) (W6 m ρ c (Proc.devRef .tc main_v44)) (W6 m ρ c (Proc.devRef .tc main_v27)) (W6 m ρ c (Proc.devRef .tc main_v58)) = _
  rw [at6_v57 m ρ c, at6_v44 m ρ c, at6_v27 m ρ c, at6_v58 m ρ c]
  rfl

/-! ## Boundary 8 -/

theorem at8_v27 : W8 m ρ c (Proc.devRef .tc main_v27) = scaleCol (eArr m c) :=
  (W8_of_ne m ρ c main_v27 (by decide)).trans (at7_v27 m ρ c)
theorem at8_v1 : W8 m ρ c (Proc.devRef .tc main_v1) = Edges.rowOf (eArr m c) :=
  (W8_of_ne m ρ c main_v1 (by decide)).trans (at7_v1 m ρ c)
theorem at8_v3 : W8 m ρ c (Proc.devRef .tc main_v3) = Edges.colOf (eArr m c) :=
  (W8_of_ne m ρ c main_v3 (by decide)).trans (at7_v3 m ρ c)
theorem at8_v25 : W8 m ρ c (Proc.devRef .tc main_v25) = Edges.norm (eArr m c) :=
  (W8_of_ne m ρ c main_v25 (by decide)).trans (at7_v25 m ρ c)
theorem at8_arg7 : W8 m ρ c (Proc.devRef .tc main_arg7) = b3Arr m c :=
  (W8_of_ne m ρ c main_arg7 (by decide)).trans (at7_arg7 m ρ c)
theorem at8_v60 : W8 m ρ c (Proc.devRef .tc main_v60) = prod3 m c := by
  refine (show W8 m ρ c (Proc.devRef .tc main_v60) = (dat4 (V7 m ρ) c).arrAt 2 cfg4.N from W8_arr m ρ c 2).trans ?_
  rw [RegionValue.region4]
  show GcnSpec.prod (W7 m ρ c (Proc.devRef .tc main_v59)) (W7 m ρ c (Proc.devRef .tc main_arg6)) = _
  rw [at7_v59 m ρ c, at7_arg6 m ρ c]
  rfl

/-! ## Boundary 9 -/

theorem at9_v60 : W9 m ρ c (Proc.devRef .tc main_v60) = prod3 m c := by
  show StableHlo.after hostOps5 (W8 m ρ c) (Proc.devRef .tc main_v60) = _
  after_results_simp
  exact at8_v60 m ρ c
theorem at9_v27 : W9 m ρ c (Proc.devRef .tc main_v27) = scaleCol (eArr m c) := by
  show StableHlo.after hostOps5 (W8 m ρ c) (Proc.devRef .tc main_v27) = _
  after_results_simp
  exact at8_v27 m ρ c
theorem at9_v72 : W9 m ρ c (Proc.devRef .tc main_v72) = Edges.agg1 (eArr m c) (prod3 m c) := by
  show StableHlo.after hostOps5 (W8 m ρ c) (Proc.devRef .tc main_v72) = _
  after_results_simp
  rw [at8_v60 m ρ c, at8_v25 m ρ c, at8_v1 m ρ c, at8_v3 m ρ c]
  rfl
theorem at9_v73 : W9 m ρ c (Proc.devRef .tc main_v73) = b3Row m c := by
  show StableHlo.after hostOps5 (W8 m ρ c) (Proc.devRef .tc main_v73) = _
  after_results_simp
  rw [at8_arg7 m ρ c]
  rfl

/-! ## Boundary 10 -/

theorem at10_v74 : W10 m ρ c (Proc.devRef .tc main_v74) = outK m c := by
  refine (show W10 m ρ c (Proc.devRef .tc main_v74) = (dat5 (V9 m ρ) c).arrAt 4 cfg5.N from W10_arr m ρ c 4).trans ?_
  rw [RegionValue.region5]
  show GcnSpec.comb Ideal.tanh (W9 m ρ c (Proc.devRef .tc main_v72)) (W9 m ρ c (Proc.devRef .tc main_v60)) (W9 m ρ c (Proc.devRef .tc main_v27)) (W9 m ρ c (Proc.devRef .tc main_v73)) = _
  rw [at9_v72 m ρ c, at9_v60 m ρ c, at9_v27 m ρ c, at9_v73 m ρ c]
  rfl

/-- The result buffer at the last boundary is the three layers applied to the launched arguments. -/
theorem result_value : W10 m ρ c (Proc.devRef .tc main_v74) = outK m c := at10_v74 m ρ c

end Cert.KernelIdeal.KBound

end
-- ==== Proof.REdges.lean ====
/-
  The parts of the computation that depend on the edge list alone, and the aggregation over incoming edges.

  The edge list is a `[2, E]` integer array: row 0 the source node of each edge, row 1 its target.  A node's degree
  is one (its self loop) plus the number of edges that point at it: a sum of ones scattered by target.  An edge's
  weight is the product of the inverse square roots of the degrees of its two ends (a negative node number counts
  from the end, as array indexing does).  Aggregating a node-feature matrix gathers the source row of every edge,
  scales it by the edge's weight and sums the scaled rows by target.
-/
import proofs.«163405_j62706522521944_1_alg».proof.Proof.Gen.ReferenceIdeal

noncomputable section

namespace Cert.ReferenceIdeal.Edges

open Idealize.ShloMosaic Cert.ReferenceIdeal Cert.ReferenceIdeal.Facts₀ Cert.ReferenceIdeal.Facts

variable {F : FTy → Type} [FloatOps F]

/-- The source node of every edge: row 0 of the edge list. -/
def rowOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge: row 1 of the edge list. -/
def colOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node number read as an array index: a negative one counts from the end. -/
def wrap (r : (⟨S3200000, .i32⟩ : BufTy).Contents (Elt F)) : (⟨S3200000, .i32⟩ : BufTy).Contents (Elt F) :=
  select (cmpi .slt r (broadcastInDim S3200000 ![] bcast_S_S3200000 (constantI S_ 32 0#32)))
    (addi r (broadcastInDim S3200000 ![] bcast_S_S3200000 (constantI S_ 32 100000#32))) r

/-- A list of node numbers as a column of one-entry index vectors. -/
def asIndex (r : (⟨S3200000, .i32⟩ : BufTy).Contents (Elt F)) : (⟨S3200000x1, .i32⟩ : BufTy).Contents (Elt F) :=
  broadcastInDim S3200000x1 ![0] bcast_S3200000_S3200000x1_0 r

/-- The degree of every node: the ones scattered by target node, plus one. -/
def deg (e : (⟨S2x3200000, .i32⟩ : BufTy).Contents (Elt F)) : (⟨S100000, .f32⟩ : BufTy).Contents (Elt F) :=
  addf (Host.scatterAdd scatter_S100000_S3200000x1_S3200000_n_0_0_1
      (broadcastInDim S100000 ![] bcast_S_S100000 (constant S_ .f32 0x00000000#32))
      (asIndex (colOf e))
      (broadcastInDim S3200000 ![] bcast_S_S3200000 (constant S_ .f32 0x3F800000#32)))
    (broadcastInDim S100000 ![] bcast_S_S100000 (constant S_ .f32 0x3F800000#32))

/-- The inverse square root of every node's degree. -/
def dinv (e : (⟨S2x3200000, .i32⟩ : BufTy).Contents (Elt F)) : (⟨S100000, .f32⟩ : BufTy).Contents (Elt F) :=
  Host.rsqrt (deg e)

/-- The weight of every edge: the product of the inverse square roots of its two ends' degrees. -/
def norm (e : (⟨S2x3200000, .i32⟩ : BufTy).Contents (Elt F)) : (⟨S3200000, .f32⟩ : BufTy).Contents (Elt F) :=
  mulf (Host.gather gather_S100000_S3200000x1_S3200000_n_0_n_n_0_1_1 (dinv e) (asIndex (wrap (rowOf e))))
    (Host.gather gather_S100000_S3200000x1_S3200000_n_0_n_n_0_1_1 (dinv e) (asIndex (wrap (colOf e))))

/-- The edge weights as a column. -/
def normCol (e : (⟨S2x3200000, .i32⟩ : BufTy).Contents (Elt F)) : (⟨S3200000x1, .f32⟩ : BufTy).Contents (Elt F) :=
  broadcastInDim S3200000x1 ![0] bcast_S3200000_S3200000x1_0 (norm e)

/-- Aggregation of a four-column node matrix over incoming edges. -/
def agg4 (e : (⟨S2x3200000, .i32⟩ : BufTy).Contents (Elt F)) (xw : (⟨S100000x4, .f32⟩ : BufTy).Contents (Elt F)) :
    (⟨S100000x4, .f32⟩ : BufTy).Contents (Elt F) :=
  Host.scatterAdd scatter_S100000x4_S3200000x1_S3200000x4_1_0_0_1
    (broadcastInDim S100000x4 ![] bcast_S_S100000x4 (constant S_ .f32 0x00000000#32))
    (asIndex (colOf e))
    (mulf (Host.gather gather_S100000x4_S3200000x1_S3200000x4_1_0_n_n_0_1_14 xw (asIndex (wrap (rowOf e))))
      (broadcastInDim S3200000x4 ![0, 1] bcast_S3200000x1_S3200000x4_0_1 (normCol e)))

/-- Aggregation of a two-column node matrix over incoming edges. -/
def agg2 (e : (⟨S2x3200000, .i32⟩ : BufTy).Contents (Elt F)) (xw : (⟨S100000x2, .f32⟩ : BufTy).Contents (Elt F)) :
    (⟨S100000x2, .f32⟩ : BufTy).Contents (Elt F) :=
  Host.scatterAdd scatter_S100000x2_S3200000x1_S3200000x2_1_0_0_1
    (broadcastInDim S100000x2 ![] bcast_S_S100000x2 (constant S_ .f32 0x00000000#32))
    (asIndex (colOf e))
    (mulf (Host.gather gather_S100000x2_S3200000x1_S3200000x2_1_0_n_n_0_1_12 xw (asIndex (wrap (rowOf e))))
      (broadcastInDim S3200000x2 ![0, 1] bcast_S3200000x1_S3200000x2_0_1 (normCol e)))

/-- Aggregation of a one-column node matrix over incoming edges. -/
def agg1 (e : (⟨S2x3200000, .i32⟩ : BufTy).Contents (Elt F)) (xw : (⟨S100000x1, .f32⟩ : BufTy).Contents (Elt F)) :
    (⟨S100000x1, .f32⟩ : BufTy).Contents (Elt F) :=
  Host.scatterAdd scatter_S100000x1_S3200000x1_S3200000x1_1_0_0_1
    (broadcastInDim S100000x1 ![] bcast_S_S100000x1 (constant S_ .f32 0x00000000#32))
    (asIndex (colOf e))
    (mulf (Host.gather gather_S100000x1_S3200000x1_S3200000x1_1_0_n_n_0_1_11 xw (asIndex (wrap (rowOf e))))
      (normCol e))

end Cert.ReferenceIdeal.Edges

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.RefScale.lean ====
/-
  The two small identities between the ways the two programs spell the per-node scale and the bias rows.

  A node's degree is one plus the number of edges that point at it, a positive whole number `d`.  The product of the
  inverse square root of `d` by itself is the reciprocal of `d`, since the square root of a number that is not
  negative, multiplied by itself, gives the number back; so the column of squared inverse square roots is the column
  of reciprocals.  A bias vector reshaped to one row and the same vector broadcast to one row both read the vector
  at the column's position.
-/
import proofs.«163405_j62706522521944_1_alg».proof.Proof.REdges
import proofs.«163405_j62706522521944_1_alg».proof.Proof.Spec
import proofs.«163405_j62706522521944_1_alg».proof.Proof.LibLayout2
import proofs.«163405_j62706522521944_1_alg».proof.Proof.LibHostLayout
import Idealize.ShloMosaic.Lib.IdealHost
import Idealize.ShloMosaic.Lib.ValueLayout

noncomputable section

open scoped BigOperators

namespace Cert.ReferenceIdeal.RefValue

open Idealize.ShloMosaic Idealize.ShloMosaic.ValueIdx Cert.ReferenceIdeal Cert.ReferenceIdeal.Gen

/-- The edge list's type: a `[2, E]` integer array. -/
abbrev EdgeList : Type := (⟨S2x3200000, .i32⟩ : BufTy).Contents (Elt Ideal)

/-- The reciprocal of every node's degree, as a column: one divided by the degree, entry by entry. -/
def dcol (e : EdgeList) : GcnSpec.Mat 100000 1 :=
  broadcastInDim S100000x1 ![0] bcast_S100000_S100000x1_0
    (Host.divf (broadcastInDim S100000 ![] bcast_S_S100000 (constant S_ .f32 0x3F800000#32)) (Edges.deg e))

/-- A four-entry bias as one row. -/
def brow4 (b : (⟨S4, .f32⟩ : BufTy).Contents (Elt Ideal)) : GcnSpec.Mat 1 4 :=
  broadcastInDim S1x4 ![1] bcast_S4_S1x4_1 b

/-- A two-entry bias as one row. -/
def brow2 (b : (⟨S2, .f32⟩ : BufTy).Contents (Elt Ideal)) : GcnSpec.Mat 1 2 :=
  broadcastInDim S1x2 ![1] bcast_S2_S1x2_1 b

/-- A one-entry bias as one row. -/
def brow1 (b : (⟨S1, .f32⟩ : BufTy).Contents (Elt Ideal)) : GcnSpec.Mat 1 1 :=
  broadcastInDim S1x1 ![1] bcast_S1_S1x1_1 b

/-- For a whole number `n`, the inverse square root of `n + 1` times itself is one divided by `n + 1`. -/
theorem rsqrt_mul_self_succ (n : ℕ) :
    Ideal.rsqrt ((((n : ℝ) + 1 : ℝ)) : EReal) * Ideal.rsqrt ((((n : ℝ) + 1 : ℝ)) : EReal)
      = Ideal.div (Ideal.ofBits .f32 0x3F800000#32) ((((n : ℝ) + 1 : ℝ)) : EReal) := by
  have hd : (0 : ℝ) < (n : ℝ) + 1 := by positivity
  rw [Ideal.rsqrt_coe, if_neg (not_lt.mpr hd.le), if_neg hd.ne', Ideal.ofBits_one_f32, Ideal.div_coe hd.ne', one_mul,
    ← EReal.coe_mul, ← mul_inv, Real.mul_self_sqrt hd.le, one_div]

/-- Ones scattered with addition into zeros: every entry of the result is a whole number, the number of updates that
    land on it. -/
theorem scatter_ones_apply {s si su : Shape} (d : ScatterDims s si su) {w : ℕ} (idx : IVec si w) (i : s.Idx) :
    ∃ n : ℕ, Ideal.hostScatterAdd d (fun _ => (0 : EReal)) idx (fun _ => (1 : EReal)) i = (n : EReal) := by
  unfold Ideal.hostScatterAdd
  rw [zero_add, Finset.sum_const, nsmul_one]
  exact ⟨_, rfl⟩

/-- The host's accumulating scatter of extended reals, read at an index. -/
theorem hostScatterAdd_apply {s si su : Shape} {w : ℕ} (d : ScatterDims s si su) (x : FVec Ideal s .f32) (idx : IVec si w)
    (upd : FVec Ideal su .f32) (i : s.Idx) :
    Host.scatterAdd d x idx upd i = Ideal.hostScatterAdd d x idx upd i := rfl

/-- The host's inverse square root of an array of extended reals, read at an index. -/
theorem hostRsqrt_apply {s : Shape} (x : FVec Ideal s .f32) (i : s.Idx) : Host.rsqrt x i = Ideal.rsqrt (x i) := rfl

/-- A node's degree is one plus a whole number: the number of edges pointing at the node. -/
theorem deg_apply (e : EdgeList) (r : Fin 100000) :
    ∃ n : ℕ, Edges.deg (F := Ideal) e (ix1 r) = ((((n : ℝ) + 1 : ℝ)) : EReal) := by
  have hz : broadcastInDim S100000 ![] bcast_S_S100000 (constant (F := Ideal) S_ .f32 0x00000000#32) = fun _ => (0 : EReal) := by
    funext j
    rw [broadcastInDim_scalar_apply]
    exact Ideal.ofBits_zero_f32
  have ho : broadcastInDim S3200000 ![] bcast_S_S3200000 (constant (F := Ideal) S_ .f32 0x3F800000#32) = fun _ => (1 : EReal) := by
    funext j
    rw [broadcastInDim_scalar_apply]
    exact Ideal.ofBits_one_f32
  have ho' : broadcastInDim S100000 ![] bcast_S_S100000 (constant (F := Ideal) S_ .f32 0x3F800000#32) = fun _ => (1 : EReal) := by
    funext j
    rw [broadcastInDim_scalar_apply]
    exact Ideal.ofBits_one_f32
  obtain ⟨n, hn⟩ := scatter_ones_apply scatter_S100000_S3200000x1_S3200000_n_0_0_1
    (Edges.asIndex (F := Ideal) (Edges.colOf e)) (ix1 r)
  refine ⟨n, ?_⟩
  unfold Edges.deg
  rw [hz, ho, ho', addf_apply, hostScatterAdd_apply, hn, EReal.coe_add, EReal.coe_one]
  rfl

/-- The squared inverse square roots of the degrees, reshaped to a column, are the column of reciprocal degrees. -/
theorem dcol_eq (e : EdgeList) (h : (⟨1, ![100000]⟩ : Shape).ShapeCasts ⟨2, ![100000, 1]⟩) :
    shapeCast (⟨2, ![100000, 1]⟩ : Shape) (mulf (F := Ideal) (φ := .f32) (Edges.dinv (F := Ideal) e) (Edges.dinv e)) h = dcol e := by
  funext i
  obtain ⟨r, u, rfl⟩ : ∃ r u, i = ix2 r u := ⟨i 0, i 1, eq_ix2 i⟩
  unfold dcol
  rw [Layout2.shapeCast_col_apply, broadcastInDim_vec_col_apply, mulf_apply, hostDivf_apply, broadcastInDim_scalar_apply,
    constant_apply]
  unfold Edges.dinv
  rw [hostRsqrt_apply]
  obtain ⟨n, hn⟩ := deg_apply e r
  rw [hn]
  exact rsqrt_mul_self_succ n

/-- A four-entry vector reshaped to one row is the vector broadcast to one row. -/
theorem brow4_eq (b : (⟨S4, .f32⟩ : BufTy).Contents (Elt Ideal)) (h : (⟨1, ![4]⟩ : Shape).ShapeCasts ⟨2, ![1, 4]⟩) :
    shapeCast (⟨2, ![1, 4]⟩ : Shape) b h = brow4 b := by
  funext i
  obtain ⟨u, j, rfl⟩ : ∃ u j, i = ix2 u j := ⟨i 0, i 1, eq_ix2 i⟩
  have hu : u = 0 := Subsingleton.elim _ _
  subst hu
  unfold brow4
  rw [shapeCast_a_1a_apply]
  refine (broadcastInDim_apply ![1] bcast_S4_S1x4_1 b (ix2 (0 : Fin 1) j) (ix1 j) fun ax => ?_).symm
  match ax with
  | ⟨0, _⟩ => rfl

/-- A two-entry vector reshaped to one row is the vector broadcast to one row. -/
theorem brow2_eq (b : (⟨S2, .f32⟩ : BufTy).Contents (Elt Ideal)) (h : (⟨1, ![2]⟩ : Shape).ShapeCasts ⟨2, ![1, 2]⟩) :
    shapeCast (⟨2, ![1, 2]⟩ : Shape) b h = brow2 b := by
  funext i
  obtain ⟨u, j, rfl⟩ : ∃ u j, i = ix2 u j := ⟨i 0, i 1, eq_ix2 i⟩
  have hu : u = 0 := Subsingleton.elim _ _
  subst hu
  unfold brow2
  rw [shapeCast_a_1a_apply]
  refine (broadcastInDim_apply ![1] bcast_S2_S1x2_1 b (ix2 (0 : Fin 1) j) (ix1 j) fun ax => ?_).symm
  match ax with
  | ⟨0, _⟩ => rfl

/-- A one-entry vector reshaped to one row is the vector broadcast to one row. -/
theorem brow1_eq (b : (⟨S1, .f32⟩ : BufTy).Contents (Elt Ideal)) (h : (⟨1, ![1]⟩ : Shape).ShapeCasts ⟨2, ![1, 1]⟩) :
    shapeCast (⟨2, ![1, 1]⟩ : Shape) b h = brow1 b := by
  funext i
  obtain ⟨u, j, rfl⟩ : ∃ u j, i = ix2 u j := ⟨i 0, i 1, eq_ix2 i⟩
  have hu : u = 0 := Subsingleton.elim _ _
  subst hu
  have hj : j = 0 := Subsingleton.elim _ _
  subst hj
  unfold brow1
  rw [shapeCast_a_1a_apply]
  refine (broadcastInDim_apply ![1] bcast_S1_S1x1_1 b (ix2 (0 : Fin 1) (0 : Fin 1)) (ix1 (0 : Fin 1)) fun ax => ?_).symm
  match ax with
  | ⟨0, _⟩ => rfl

end Cert.ReferenceIdeal.RefValue

end
-- ==== Proof.RefValue.lean ====
/-
  The reference program's result, read as the three-layer network of the specification.

  Each layer of the reference forms the product of the node features by the layer's weights, aggregates the product
  over incoming edges, adds the product scaled row by row by the reciprocal of the node's degree, adds the bias to
  every row, and applies the activation.  With the reciprocal-degree column and the bias rows named as the reference
  spells them, every layer is read entry by entry against the specification's layer.
-/
import proofs.«163405_j62706522521944_1_alg».proof.Proof.Gen.ReferenceIdeal.Run
import proofs.«163405_j62706522521944_1_alg».proof.Proof.Gen.ReferenceIdeal.Read
import proofs.«163405_j62706522521944_1_alg».proof.Proof.REdges
import proofs.«163405_j62706522521944_1_alg».proof.Proof.RefScale
import proofs.«163405_j62706522521944_1_alg».proof.Proof.Spec
import proofs.«163405_j62706522521944_1_alg».proof.Proof.LibHostLayout
import proofs.«163405_j62706522521944_1_alg».proof.Proof.LibDotRows
import Idealize.ShloMosaic.Lib.IdealHost

noncomputable section

open scoped BigOperators

namespace Cert.ReferenceIdeal.RefValue

open Idealize.ShloMosaic Idealize.ShloMosaic.ValueIdx Idealize.ShloMosaic.TcCoe Cert.ReferenceIdeal Cert.ReferenceIdeal.Gen

/-- One row `[1, b]` copied down `a` rows reads, at `(i, j)`, the row at column `j`. -/
theorem broadcastInDim_row_apply {α : Type} {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- The host's hyperbolic tangent of an array of extended reals, read at an index. -/
theorem hostTanh_apply {s : Shape} (x : FVec Ideal s .f32) (i : s.Idx) : Host.tanh x i = Ideal.tanh (x i) := rfl

/-- The first layer's product is the textbook matrix product. -/
theorem prod4_eq (h : (⟨S100000x16, .f32⟩ : BufTy).Contents (Elt Ideal)) (W : (⟨S16x4, .f32⟩ : BufTy).Contents (Elt Ideal)) :
    Host.dotGeneral (F := Ideal) (φ₁ := .f32) (φ₂ := .f32) dot_S100000x16_S16x4_S100000x4_1_0_0_1_n_n none h W = GcnSpec.prod h W := by
  funext i
  obtain ⟨r, j, rfl⟩ : ∃ r j, i = ix2 r j := ⟨i 0, i 1, eq_ix2 i⟩
  rw [GcnSpec.prod_apply]
  exact dotGeneral_rows dot_S100000x16_S16x4_S100000x4_1_0_0_1_n_n none .single rfl rfl
    Read.lhs_main_v0_0 Read.lhs_main_v0_1 Read.rhs_main_v0_0 Read.rhs_main_v0_1 h W r j

/-- The first layer, as the reference spells it, is the specification's layer with the rectifier. -/
theorem layer4_eq (e : EdgeList) (h : (⟨S100000x16, .f32⟩ : BufTy).Contents (Elt Ideal))
    (W : (⟨S16x4, .f32⟩ : BufTy).Contents (Elt Ideal)) (b : (⟨S4, .f32⟩ : BufTy).Contents (Elt Ideal)) :
    maximumf
        (addf
          (addf (Edges.agg4 e (Host.dotGeneral (F := Ideal) (φ₁ := .f32) (φ₂ := .f32) dot_S100000x16_S16x4_S100000x4_1_0_0_1_n_n none h W))
            (mulf (Host.dotGeneral (F := Ideal) (φ₁ := .f32) (φ₂ := .f32) dot_S100000x16_S16x4_S100000x4_1_0_0_1_n_n none h W)
              (broadcastInDim S100000x4 ![0, 1] bcast_S100000x1_S100000x4_0_1 (dcol e))))
          (broadcastInDim S100000x4 ![0, 1] bcast_S1x4_S100000x4_0_1 (brow4 b)))
        (broadcastInDim S100000x4 ![] bcast_S_S100000x4 (constant S_ .f32 0x00000000#32))
      = GcnSpec.layer GcnSpec.relu (Edges.agg4 e) h W (dcol e) (brow4 b) := by
  rw [prod4_eq]
  funext i
  obtain ⟨r, j, rfl⟩ : ∃ r j, i = ix2 r j := ⟨i 0, i 1, eq_ix2 i⟩
  unfold GcnSpec.layer
  rw [GcnSpec.comb_apply, maximumf_apply, addf_apply, addf_apply, mulf_apply, broadcastInDim_col_apply,
    broadcastInDim_row_apply, broadcastInDim_scalar_apply]
  rfl

/-- The second layer's product is the textbook matrix product. -/
theorem prod2_eq (h : GcnSpec.Mat 100000 4) (W : (⟨S4x2, .f32⟩ : BufTy).Contents (Elt Ideal)) :
    Host.dotGeneral (F := Ideal) (φ₁ := .f32) (φ₂ := .f32) dot_S100000x4_S4x2_S100000x2_1_0_0_1_n_n none h W = GcnSpec.prod h W := by
  funext i
  obtain ⟨r, j, rfl⟩ : ∃ r j, i = ix2 r j := ⟨i 0, i 1, eq_ix2 i⟩
  rw [GcnSpec.prod_apply]
  exact dotGeneral_rows dot_S100000x4_S4x2_S100000x2_1_0_0_1_n_n none .single rfl rfl
    Read.lhs_main_v50_0 Read.lhs_main_v50_1 Read.rhs_main_v50_0 Read.rhs_main_v50_1 h W r j

/-- The third layer's product is the textbook matrix product. -/
theorem prod1_eq (h : GcnSpec.Mat 100000 2) (W : (⟨S2x1, .f32⟩ : BufTy).Contents (Elt Ideal)) :
    Host.dotGeneral (F := Ideal) (φ₁ := .f32) (φ₂ := .f32) dot_S100000x2_S2x1_S100000x1_1_0_0_1_n_n none h W = GcnSpec.prod h W := by
  funext i
  obtain ⟨r, j, rfl⟩ : ∃ r j, i = ix2 r j := ⟨i 0, i 1, eq_ix2 i⟩
  rw [GcnSpec.prod_apply]
  exact dotGeneral_rows dot_S100000x2_S2x1_S100000x1_1_0_0_1_n_n none .single rfl rfl
    Read.lhs_main_v100_0 Read.lhs_main_v100_1 Read.rhs_main_v100_0 Read.rhs_main_v100_1 h W r j

/-- The second layer, as the reference spells it, is the specification's layer with the rectifier. -/
theorem layer2_eq (e : EdgeList) (h : GcnSpec.Mat 100000 4)
    (W : (⟨S4x2, .f32⟩ : BufTy).Contents (Elt Ideal)) (b : (⟨S2, .f32⟩ : BufTy).Contents (Elt Ideal)) :
    maximumf
        (addf
          (addf (Edges.agg2 e (Host.dotGeneral (F := Ideal) (φ₁ := .f32) (φ₂ := .f32) dot_S100000x4_S4x2_S100000x2_1_0_0_1_n_n none h W))
            (mulf (Host.dotGeneral (F := Ideal) (φ₁ := .f32) (φ₂ := .f32) dot_S100000x4_S4x2_S100000x2_1_0_0_1_n_n none h W)
              (broadcastInDim S100000x2 ![0, 1] bcast_S100000x1_S100000x2_0_1 (dcol e))))
          (broadcastInDim S100000x2 ![0, 1] bcast_S1x2_S100000x2_0_1 (brow2 b)))
        (broadcastInDim S100000x2 ![] bcast_S_S100000x2 (constant S_ .f32 0x00000000#32))
      = GcnSpec.layer GcnSpec.relu (Edges.agg2 e) h W (dcol e) (brow2 b) := by
  rw [prod2_eq]
  funext i
  obtain ⟨r, j, rfl⟩ : ∃ r j, i = ix2 r j := ⟨i 0, i 1, eq_ix2 i⟩
  unfold GcnSpec.layer
  rw [GcnSpec.comb_apply, maximumf_apply, addf_apply, addf_apply, mulf_apply, broadcastInDim_col_apply,
    broadcastInDim_row_apply, broadcastInDim_scalar_apply]
  rfl

/-- The third layer, as the reference spells it, is the specification's layer with the hyperbolic tangent.  Its
    matrices have one column, so the reciprocal-degree column is used as it is. -/
theorem layer1_eq (e : EdgeList) (h : GcnSpec.Mat 100000 2)
    (W : (⟨S2x1, .f32⟩ : BufTy).Contents (Elt Ideal)) (b : (⟨S1, .f32⟩ : BufTy).Contents (Elt Ideal)) :
    Host.tanh
        (addf
          (addf (Edges.agg1 e (Host.dotGeneral (F := Ideal) (φ₁ := .f32) (φ₂ := .f32) dot_S100000x2_S2x1_S100000x1_1_0_0_1_n_n none h W))
            (mulf (Host.dotGeneral (F := Ideal) (φ₁ := .f32) (φ₂ := .f32) dot_S100000x2_S2x1_S100000x1_1_0_0_1_n_n none h W)
              (dcol e)))
          (broadcastInDim S100000x1 ![0, 1] bcast_S1x1_S100000x1_0_1 (brow1 b)))
      = GcnSpec.layer Ideal.tanh (Edges.agg1 e) h W (dcol e) (brow1 b) := by
  rw [prod1_eq]
  funext i
  obtain ⟨r, j, rfl⟩ : ∃ r j, i = ix2 r j := ⟨i 0, i 1, eq_ix2 i⟩
  have hj : j = 0 := Subsingleton.elim _ _
  subst hj
  unfold GcnSpec.layer
  rw [GcnSpec.comb_apply, hostTanh_apply, addf_apply, addf_apply, mulf_apply, broadcastInDim_row_apply]

/-- The reference's result is the three-layer network of the specification: two layers with the rectifier and one
    with the hyperbolic tangent, each aggregating over the same edge list with the same reciprocal-degree column. -/
theorem ref_value (m : (ℓ : Loc nD τ sig) → Buf (Elt Ideal) ℓ) (c : Dev nD) :
    Cert.ReferenceIdeal.Value.res_main_v147 (F := Ideal) m c
      = GcnSpec.layer Ideal.tanh (Edges.agg1 (m ((c.tc : Thread nD τ).loc main_arg1)))
          (GcnSpec.layer GcnSpec.relu (Edges.agg2 (m ((c.tc : Thread nD τ).loc main_arg1)))
            (GcnSpec.layer GcnSpec.relu (Edges.agg4 (m ((c.tc : Thread nD τ).loc main_arg1)))
              (m ((c.tc : Thread nD τ).loc main_arg0)) (m ((c.tc : Thread nD τ).loc main_arg2))
              (dcol (m ((c.tc : Thread nD τ).loc main_arg1))) (brow4 (m ((c.tc : Thread nD τ).loc main_arg3))))
            (m ((c.tc : Thread nD τ).loc main_arg4)) (dcol (m ((c.tc : Thread nD τ).loc main_arg1))) (brow2 (m ((c.tc : Thread nD τ).loc main_arg5))))
          (m ((c.tc : Thread nD τ).loc main_arg6)) (dcol (m ((c.tc : Thread nD τ).loc main_arg1))) (brow1 (m ((c.tc : Thread nD τ).loc main_arg7))) := by
  rw [← layer1_eq, ← layer2_eq, ← layer4_eq]
  rfl

end Cert.ReferenceIdeal.RefValue

end
-- ==== Proof.Bridge.lean ====
/-
  The two programs compute one function.

  Both compute three graph-convolution layers over the same edge data.  The aggregation over incoming edges, the degree
  and its inverse square root are the same operations in both, so they are the same functions.  The kernel program
  scales the self-loop term by the inverse square root of the degree times itself where the reference scales it by
  the reciprocal of the degree: the degree is one plus a count, a positive real, so the two scales agree.  The kernel
  program reshapes a bias vector into a row where the reference broadcasts it into a row: the same row.
-/
import proofs.«163405_j62706522521944_1_alg».proof.Proof.KBound
import proofs.«163405_j62706522521944_1_alg».proof.Proof.RefValue

noncomputable section

namespace Cert.Bridge

open Idealize.ShloMosaic Idealize.ShloMosaic.TcCoe

/-- The aggregation over incoming edges is spelt by the same operations in both programs. -/
theorem agg4_eq (e) : Cert.KernelIdeal.Edges.agg4 (F := Ideal) e = Cert.ReferenceIdeal.Edges.agg4 (F := Ideal) e := rfl
theorem agg2_eq (e) : Cert.KernelIdeal.Edges.agg2 (F := Ideal) e = Cert.ReferenceIdeal.Edges.agg2 (F := Ideal) e := rfl
theorem agg1_eq (e) : Cert.KernelIdeal.Edges.agg1 (F := Ideal) e = Cert.ReferenceIdeal.Edges.agg1 (F := Ideal) e := rfl
/-- So is the inverse square root of the degree. -/
theorem dinv_eq (e) : Cert.KernelIdeal.Edges.dinv (F := Ideal) e = Cert.ReferenceIdeal.Edges.dinv (F := Ideal) e := rfl

/-- The kernel program's self-loop scale is the reference's reciprocal degree, as a column. -/
theorem scale_eq (e) : Cert.KernelIdeal.KBound.scaleCol e = Cert.ReferenceIdeal.RefValue.dcol e := by
  unfold Cert.KernelIdeal.KBound.scaleCol
  rw [dinv_eq]
  exact Cert.ReferenceIdeal.RefValue.dcol_eq e _

/-- The network's output as the kernel program computes it, from arguments the reference's memory agrees on, is the
    reference's result term. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v147 (F := Ideal) m' c = Cert.KernelIdeal.KBound.outK m c := by
  rw [Cert.ReferenceIdeal.RefValue.ref_value, h0, h1, h2, h3, h4, h5, h6, h7]
  unfold Cert.KernelIdeal.KBound.outK Cert.KernelIdeal.KBound.hid2 Cert.KernelIdeal.KBound.hid1
    Cert.KernelIdeal.KBound.b1Row Cert.KernelIdeal.KBound.b2Row Cert.KernelIdeal.KBound.b3Row
  rw [agg4_eq, agg2_eq, agg1_eq, scale_eq, Cert.ReferenceIdeal.RefValue.brow4_eq, Cert.ReferenceIdeal.RefValue.brow2_eq,
    Cert.ReferenceIdeal.RefValue.brow1_eq]

end Cert.Bridge

end
-- ==== Proof.lean ====
/-
  The certificate: a three-layer graph autoencoder whose dense stages run as kernel launches, against its plain
  array-program reference, over the extended reals.

  Both programs compute, three times over, a graph convolution: the product of the node matrix by the layer's weights,
  aggregated over incoming edges with the symmetric degree normalisation, plus the product scaled by the reciprocal
  degree (the self loop), plus the bias, then a rectifier (layers one and two) or a hyperbolic tangent (layer three).
  The kernel program forms each product block by block on the matrix unit and combines block by block; it keeps the
  gather and the scatter-add over the edge list as the same host operations the reference uses, and computes the
  degree data once where the reference computes it per layer.  Read at the exact values, a block product is the
  product's restriction to the block, the blocks tile the node axis, and the one place the two differ as formulas is
  the self-loop scale: the inverse square root of the degree times itself against one over the degree, equal because
  a degree is one plus a count.  No rewrite was applied when the kernel program was idealized, so that claim is
  trivial; the three frame claims are the generated frames and the reference's run.
-/
import proofs.«163405_j62706522521944_1_alg».proof.Defs
import proofs.«163405_j62706522521944_1_alg».proof.Proof.Gen.Kernel
import proofs.«163405_j62706522521944_1_alg».proof.Proof.Gen.Kernel.Frame
import proofs.«163405_j62706522521944_1_alg».proof.Proof.Gen.KernelIdeal
import proofs.«163405_j62706522521944_1_alg».proof.Proof.Gen.KernelIdeal.Frame
import proofs.«163405_j62706522521944_1_alg».proof.Proof.Gen.ReferenceIdeal
import proofs.«163405_j62706522521944_1_alg».proof.Proof.Gen.Pre_finite_inputs
import proofs.«163405_j62706522521944_1_alg».proof.Proof.Gen.ReferenceIdeal.Run
import proofs.«163405_j62706522521944_1_alg».proof.Proof.KRun
import proofs.«163405_j62706522521944_1_alg».proof.Proof.KBound
import proofs.«163405_j62706522521944_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the three layers applied to the launched arguments: the kernel program's result buffer at
    its last boundary's contents, the reference's at its composed term, which is the same function. -/
theorem algebraic : Cert.algebraic_KernelIdeal_ReferenceIdeal := by
  intro m ρ m' ρ' _ hagree
  refine ⟨fun c => Cert.KernelIdeal.KBound.outK m c, ?_, ?_⟩
  · exact (θ_run Cert.KernelIdeal.defs _ _).mono
      (fun _ h c => ⟨(h c).1.trans (Cert.KernelIdeal.KBound.result_value m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    exact Cert.Bridge.result_eq m m' c h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
